-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4096x2048 .f32) (main_arg1 : FVec F S2048x2048 .f32) (main_arg2 : FVec F S2048 .f32) (main_arg3 : FVec F S2048 .f32) (main_arg4 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S2048x1 : Shape := ⟨2, ![2048, 1]⟩
abbrev S32 : Shape := ⟨1, ![32]⟩
abbrev S1x32 : Shape := ⟨2, ![1, 32]⟩
abbrev S_ : Shape := ⟨0, ![]⟩
abbrev S2048x32 : Shape := ⟨2, ![2048, 32]⟩
abbrev S32x2048 : Shape := ⟨2, ![32, 2048]⟩
abbrev S256x2048 : Shape := ⟨2, ![256, 2048]⟩
abbrev S256x32 : Shape := ⟨2, ![256, 32]⟩

abbrev nBuf : Space → Nat
  | .hbm => 37
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S2048, .i32⟩
  | .hbm, ⟨10, _⟩ => ⟨S2048x1, .i32⟩
  | .hbm, ⟨11, _⟩ => ⟨S32, .i32⟩
  | .hbm, ⟨12, _⟩ => ⟨S1x32, .i32⟩
  | .hbm, ⟨13, _⟩ => ⟨S_, .i32⟩
  | .hbm, ⟨14, _⟩ => ⟨S_, .i32⟩
  | .hbm, ⟨15, _⟩ => ⟨S2048x1, .i32⟩
  | .hbm, ⟨16, _⟩ => ⟨S2048x1, .i32⟩
  | .hbm, ⟨17, _⟩ => ⟨S2048x1, .i32⟩
  | .hbm, ⟨18, _⟩ => ⟨S_, .i32⟩
  | .hbm, ⟨19, _⟩ => ⟨S2048x1, .i32⟩
  | .hbm, ⟨20, _⟩ => ⟨S2048x1, .i1⟩
  | .hbm, ⟨21, _⟩ => ⟨S2048x1, .i32⟩
  | .hbm, ⟨22, _⟩ => ⟨S2048x1, .i32⟩
  | .hbm, ⟨23, _⟩ => ⟨S_, .i32⟩
  | .hbm, ⟨24, _⟩ => ⟨S2048x1, .i32⟩
  | .hbm, ⟨25, _⟩ => ⟨S2048x1, .i1⟩
  | .hbm, ⟨26, _⟩ => ⟨S2048x1, .i1⟩
  | .hbm, ⟨27, _⟩ => ⟨S_, .i32⟩
  | .hbm, ⟨28, _⟩ => ⟨S2048x1, .i32⟩
  | .hbm, ⟨29, _⟩ => ⟨S2048x1, .i32⟩
  | .hbm, ⟨30, _⟩ => ⟨S2048x1, .i32⟩
  | .hbm, ⟨31, _⟩ => ⟨S2048x32, .i32⟩
  | .hbm, ⟨32, _⟩ => ⟨S2048x32, .i32⟩
  | .hbm, ⟨33, _⟩ => ⟨S2048x32, .i1⟩
  | .hbm, ⟨34, _⟩ => ⟨S2048x32, .f32⟩
  | .hbm, ⟨35, _⟩ => ⟨S32x2048, .f32⟩
  | .hbm, ⟨36, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S2048x32, .f32⟩
  | .local _ .vmem, ⟨7, _⟩ => ⟨S32x2048, .f32⟩
  | .local _ .vmem, ⟨8, _⟩ => ⟨S256x2048, .f32⟩
  | .local _ .vmem, ⟨9, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S2048_S1x2048 : S2048.ShapeCasts S1x2048
  bcast_S2048_S2048x1_0 : S2048.BroadcastsInDim S2048x1 (![0] : Fin 1 → Fin S2048x1.rank)
  bcast_S32_S1x32_1 : S32.BroadcastsInDim S1x32 (![1] : Fin 1 → Fin S1x32.rank)
  bcast_S_S2048x1 : S_.BroadcastsInDim S2048x1 (![] : Fin 0 → Fin S2048x1.rank)
  bcast_S2048x1_S2048x32_0_1 : S2048x1.BroadcastsInDim S2048x32 (![0, 1] : Fin 2 → Fin S2048x32.rank)
  bcast_S1x32_S2048x32_0_1 : S1x32.BroadcastsInDim S2048x32 (![0, 1] : Fin 2 → Fin S2048x32.rank)
  transposes_S2048x32_S32x2048_1_0 : S2048x32.Transposes [1, 0] S32x2048
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  dot_S256x2048_S2048x2048_S256x2048_1_1_0_0_n_n_wf : DotDims.WF S256x2048 S2048x2048 S256x2048 [1] [1] [0] [0] [] []
  dot_S256x2048_S2048x32_S256x32_1_0_0_1_n_n_wf : DotDims.WF S256x2048 S2048x32 S256x32 [1] [0] [0] [1] [] []
  dot_S256x32_S32x2048_S256x2048_1_0_0_1_n_n_wf : DotDims.WF S256x32 S32x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x32.size a ≤ S2048x32.size a
  hwx0_5 : ∀ i : grid0.Coords, EltTy.bits .f32 = 32 ∨ (Rect.block (s := S2048x32) S2048x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x2048.size a ≤ S32x2048.size a
  hwx0_6 : ∀ i : grid0.Coords, EltTy.bits .f32 = 32 ∨ (Rect.block (s := S32x2048) S32x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S4096x2048.size a
  hwx0_7 : ∀ i : grid0.Coords, EltTy.bits .f32 = 32 ∨ (Rect.block (s := S4096x2048) S256x2048.size (cc0_transform_7 i) (hinb0_7 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x2048_S2048x32_S256x32_1_0_0_1_n_n : DotDims S256x2048 S2048x32 S256x32 where
  lhsContracting := [1]
  rhsContracting := [0]
  lhsNonContracting := [0]
  rhsNonContracting := [1]
  lhsBatch := []
  rhsBatch := []
  wf := dot_S256x2048_S2048x32_S256x32_1_0_0_1_n_n_wf
def dot_S256x32_S32x2048_S256x2048_1_0_0_1_n_n : DotDims S256x32 S32x2048 S256x2048 where
  lhsContracting := [1]
  rhsContracting := [0]
  lhsNonContracting := [0]
  rhsNonContracting := [1]
  lhsBatch := []
  rhsBatch := []
  wf := dot_S256x32_S32x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S2048x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S32x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S256x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S4096x32x64 : Shape := ⟨3, ![4096, 32, 64]⟩
abbrev S_ : Shape := ⟨0, ![]⟩
abbrev S4096x32 : Shape := ⟨2, ![4096, 32]⟩
abbrev S4096x32x1 : Shape := ⟨3, ![4096, 32, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S4096x2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x32x64, .f32⟩
  | .hbm, ⟨10, _⟩ => ⟨S_, .f32⟩
  | .hbm, ⟨11, _⟩ => ⟨S4096x32, .f32⟩
  | .hbm, ⟨12, _⟩ => ⟨S4096x32x1, .f32⟩
  | .hbm, ⟨13, _⟩ => ⟨S_, .f32⟩
  | .hbm, ⟨14, _⟩ => ⟨S4096x32x1, .f32⟩
  | .hbm, ⟨15, _⟩ => ⟨S4096x32x1, .f32⟩
  | .hbm, ⟨16, _⟩ => ⟨S4096x32x64, .f32⟩
  | .hbm, ⟨17, _⟩ => ⟨S_, .f32⟩
  | .hbm, ⟨18, _⟩ => ⟨S4096x32, .f32⟩
  | .hbm, ⟨19, _⟩ => ⟨S4096x32x1, .f32⟩
  | .hbm, ⟨20, _⟩ => ⟨S_, .f32⟩
  | .hbm, ⟨21, _⟩ => ⟨S4096x32x1, .f32⟩
  | .hbm, ⟨22, _⟩ => ⟨S4096x32x1, .f32⟩
  | .hbm, ⟨23, _⟩ => ⟨S4096x32x1, .f32⟩
  | .hbm, ⟨24, _⟩ => ⟨S4096x32x1, .f32⟩
  | .hbm, ⟨25, _⟩ => ⟨S4096x32x64, .f32⟩
  | .hbm, ⟨26, _⟩ => ⟨S4096x32x64, .f32⟩
  | .hbm, ⟨27, _⟩ => ⟨S_, .f32⟩
  | .hbm, ⟨28, _⟩ => ⟨S4096x32x1, .f32⟩
  | .hbm, ⟨29, _⟩ => ⟨S4096x32x1, .f32⟩
  | .hbm, ⟨30, _⟩ => ⟨S4096x32x1, .f32⟩
  | .hbm, ⟨31, _⟩ => ⟨S4096x32x64, .f32⟩
  | .hbm, ⟨32, _⟩ => ⟨S4096x32x64, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v30 : Ref sig .tc := ⟨.hbm, 47, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  shapeCasts_S4096x2048_S4096x32x64 : S4096x2048.ShapeCasts S4096x32x64
  reducesTo_S4096x32x64_S4096x32_d2 : S4096x32x64.ReducesTo [2] S4096x32
  h_S_ : 0 < S_.numel
  bcast_S4096x32_S4096x32x1_0_1 : S4096x32.BroadcastsInDim S4096x32x1 (![0, 1] : Fin 2 → Fin S4096x32x1.rank)
  bcast_S_S4096x32x1 : S_.BroadcastsInDim S4096x32x1 (![] : Fin 0 → Fin S4096x32x1.rank)
  bcast_S4096x32x1_S4096x32x64_0_1_2 : S4096x32x1.BroadcastsInDim S4096x32x64 (![0, 1, 2] : Fin 3 → Fin S4096x32x64.rank)
  shapeCasts_S4096x32x64_S4096x2048 : S4096x32x64.ShapeCasts S4096x2048
  bcast_S_S4096x2048 : S_.BroadcastsInDim S4096x2048 (![] : Fin 0 → Fin S4096x2048.rank)
  dot_S4096x2048_S2048x2048_S4096x2048_1_1_0_0_n_n_wf : DotDims.WF S4096x2048 S2048x2048 S4096x2048 [1] [1] [0] [0] [] []

variable [Facts₀]

def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf

class Facts : Prop extends Facts₀ where

variable [Facts]
-- ==== Proof.GroupNormSpec.lean ====
/-
  The function both programs compute, index by index, on the extended reals.

  For a row `r` of `x : [4096, 2048]`, a weight `w : [2048, 2048]` and a bias `b : [2048]`, the linear layer is
  `y c = (∑ k, x (r, k) · w (c, k)) + b c` for each of the 2048 channels `c`. The channels fall into 32 consecutive
  groups of 64: channel `c` lies in group `c / 64`, and group `g` holds the channels `64 g + k`, `k < 64`. Within a
  group the mean is `(0 + ∑ k, y (64 g + k)) / 64`, the mean of squares `(0 + ∑ k, y (64 g + k)²) / 64`, and the
  variance is their difference `meansq − mean²` (no clamp). The result at `(r, c)` is
  `min 1 (max (−1) (((y c − mean g) · rsqrt (var g + ε)) · γ c + β c))` with `g = c / 64`.
  The float literals stay the words the programs spell (`0`, `64`, `ε`, `−1`, `1`); only `0` and `64` are ever
  evaluated, where the two programs' arrangements of the mean are joined.
-/
import Idealize.ShloMosaic.PureOps.Ideal
import Idealize.ShloMosaic.Lib.ValueIdx

noncomputable section

namespace Cert.GroupNorm

open Idealize.ShloMosaic Idealize.ShloMosaic.ValueIdx

/-- The shapes of the arguments: activations, weight, and the three per-channel vectors. -/
abbrev SX : Shape := ⟨2, ![4096, 2048]⟩
abbrev SW : Shape := ⟨2, ![2048, 2048]⟩
abbrev SC : Shape := ⟨1, ![2048]⟩

/-- Channel `k` of group `g`: `64 g + k`. -/
def chan (g : Fin 32) (k : Fin 64) : Fin 2048 := ⟨g.val * 64 + k.val, by have := g.isLt; have := k.isLt; omega⟩

/-- The group a channel lies in: `c / 64`. -/
def grp (c : Fin 2048) : Fin 32 := ⟨c.val / 64, by have := c.isLt; omega⟩

/-- A channel's position inside its group: `c % 64`. -/
def pos (c : Fin 2048) : Fin 64 := ⟨c.val % 64, by omega⟩

theorem chan_grp_pos (c : Fin 2048) : chan (grp c) (pos c) = c := by
  apply Fin.ext; show c.val / 64 * 64 + c.val % 64 = c.val; omega

theorem grp_chan (g : Fin 32) (k : Fin 64) : grp (chan g k) = g := by
  apply Fin.ext; show (g.val * 64 + k.val) / 64 = g.val; have := k.isLt; omega

/-- The linear layer at row `r`, channel `c`: `(∑ k, x (r, k) · w (c, k)) + b c`. -/
def lin (x : SX.Idx → EReal) (w : SW.Idx → EReal) (b : SC.Idx → EReal) (r : Fin 4096) (c : Fin 2048) : EReal :=
  (∑ k : Fin 2048, x (ix2 r k) * w (ix2 c k)) + b (ix1 c)

/-- A group's mean over its 64 channels, as the reference arranges it: the sum started from the zero word, divided by
    the word of 64. -/
def mean (y : Fin 2048 → EReal) (g : Fin 32) : EReal :=
  Ideal.div (Ideal.ofBits .f32 0x00000000#32 + ∑ k : Fin 64, y (chan g k)) (Ideal.ofBits .f32 0x42800000#32)

/-- A group's mean of squares, arranged the same way. -/
def meansq (y : Fin 2048 → EReal) (g : Fin 32) : EReal :=
  Ideal.div (Ideal.ofBits .f32 0x00000000#32 + ∑ k : Fin 64, y (chan g k) * y (chan g k)) (Ideal.ofBits .f32 0x42800000#32)

/-- A group's variance: mean of squares minus squared mean. -/
def var (y : Fin 2048 → EReal) (g : Fin 32) : EReal := meansq y g - mean y g * mean y g

/-- One row normalised, scaled, shifted and clipped to `[−1, 1]`, at channel `c`. -/
def norm (y : Fin 2048 → EReal) (γ β : SC.Idx → EReal) (c : Fin 2048) : EReal :=
  min (Ideal.ofBits .f32 0x3F800000#32) (max (Ideal.ofBits .f32 0xBF800000#32)
    (((y c - mean y (grp c)) * Ideal.rsqrt (var y (grp c) + Ideal.ofBits .f32 0x3727C5AC#32)) * γ (ix1 c) + β (ix1 c)))

/-- The whole result array as one function of the five argument arrays. -/
def G (x : SX.Idx → EReal) (w : SW.Idx → EReal) (b γ β : SC.Idx → EReal) : SX.Idx → EReal :=
  fun i => norm (lin x w b (i 0)) γ β (i 1)

theorem G_apply (x : SX.Idx → EReal) (w : SW.Idx → EReal) (b γ β : SC.Idx → EReal) (r : Fin 4096) (c : Fin 2048) :
    G x w b γ β (ix2 r c) = norm (lin x w b r) γ β c := rfl

end Cert.GroupNorm

end
-- ==== Proof.ReferenceValue.lean ====
/-
  The reference program's result, read index by index, is the function `Cert.GroupNorm.G`.

  The reference computes the linear layer `y = x · wᵀ + b`, regroups each row's 2048 channels as 32 groups of 64,
  takes each group's mean and mean of squares (a sum started from the zero word, divided by the word of 64), the
  variance as their difference, normalises, regroups back to 2048 channels, scales by `γ`, shifts by `β` and clips
  to `[−1, 1]`. Every step below reads one operation of the reference at an index given by explicit coordinates;
  the only arithmetic is on indices: `((r · 32 + g) · 64 + k) / 2048 = r`, `((r · 32 + g) · 64 + k) % 2048 = 64 g + k`,
  and, back, `(r · 2048 + c) / 2048 = r`, `(r · 2048 + c) / 64 % 32 = c / 64`, `(r · 2048 + c) % 64 = c % 64`.
-/
import proofs.«170412_j1580547965295_2_alg».proof.Proof.Gen.ReferenceIdeal.Read
import proofs.«170412_j1580547965295_2_alg».proof.Proof.GroupNormSpec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.TcCoe Idealize.SL.Sem
open Idealize.ShloMosaic.ValueIdx
open Cert.GroupNorm (lin mean meansq var norm chan grp pos G)

/-! ## Index equations: the reference's composed index maps over explicit coordinates -/

/-- The left operand of the contraction at `(r, c)`, term `k`, is read at `(r, k)`. -/
theorem lidx_v0 (r : Fin 4096) (c k : Fin 2048) : lidx_main_v0 (ix2 r c) k = ix2 r k :=
  funext fun a => by match a with | ⟨0, _⟩ => rfl | ⟨1, _⟩ => rfl

/-- The right operand of the contraction at `(r, c)`, term `k`, is read at `(c, k)`. -/
theorem ridx_v0 (r : Fin 4096) (c k : Fin 2048) : ridx_main_v0 (ix2 r c) k = ix2 c k :=
  funext fun a => by match a with | ⟨0, _⟩ => rfl | ⟨1, _⟩ => rfl

/-- The bias, broadcast along rows, is read at channel `c`. -/
theorem idx_v1_v2 (r : Fin 4096) (c : Fin 2048) : idx_main_v1 (idx_main_v2 (ix2 r c)) = ix1 c :=
  funext fun a => by match a with | ⟨0, _⟩ => rfl

/-- The scale, broadcast along rows, is read at channel `c`. -/
theorem idx_v24_v25 (r : Fin 4096) (c : Fin 2048) : idx_main_v24 (idx_main_v25 (ix2 r c)) = ix1 c :=
  funext fun a => by match a with | ⟨0, _⟩ => rfl

/-- The shift, broadcast along rows, is read at channel `c`. -/
theorem idx_v27_v28 (r : Fin 4096) (c : Fin 2048) : idx_main_v27 (idx_main_v28 (ix2 r c)) = ix1 c :=
  funext fun a => by match a with | ⟨0, _⟩ => rfl

/-- Regrouping: position `(r, g, k)` of the grouped array is channel `64 g + k` of row `r`. -/
theorem idx_v4 (r : Fin 4096) (g : Fin 32) (k : Fin 64) : idx_main_v4 (ix3 r g k) = ix2 r (chan g k) :=
  funext fun a => Fin.ext (by
    have hr := r.isLt; have hg := g.isLt; have hk := k.isLt
    match a with
    | ⟨0, _⟩ => show ((r.val * 32 + g.val) * 64 + k.val) / 2048 = r.val; omega
    | ⟨1, _⟩ => show ((r.val * 32 + g.val) * 64 + k.val) % 2048 = g.val * 64 + k.val; omega)

/-- A group's sum runs over the positions `(r, g, k)`, `k < 64`. -/
theorem idx_v5_v6 (r : Fin 4096) (g : Fin 32) (z : Fin 1) (k : Fin 64) :
    idx_main_v5 (idx_main_v6 (ix3 r g z)) k = ix3 r g k :=
  funext fun a => by match a with | ⟨0, _⟩ => rfl | ⟨1, _⟩ => rfl | ⟨2, _⟩ => rfl

/-- The sum of squares runs over the same positions. -/
theorem idx_v10_v11 (r : Fin 4096) (g : Fin 32) (z : Fin 1) (k : Fin 64) :
    idx_main_v10 (idx_main_v11 (ix3 r g z)) k = ix3 r g k :=
  funext fun a => by match a with | ⟨0, _⟩ => rfl | ⟨1, _⟩ => rfl | ⟨2, _⟩ => rfl

/-- A group's statistic, broadcast over the group, is read at `(r, g, 0)`. -/
theorem idx_v16 (r : Fin 4096) (g : Fin 32) (k : Fin 64) : idx_main_v16 (ix3 r g k) = ix3 r g (0 : Fin 1) :=
  funext fun a => by match a with | ⟨0, _⟩ => rfl | ⟨1, _⟩ => rfl | ⟨2, _⟩ => rfl

theorem idx_v21 (r : Fin 4096) (g : Fin 32) (k : Fin 64) : idx_main_v21 (ix3 r g k) = ix3 r g (0 : Fin 1) :=
  funext fun a => by match a with | ⟨0, _⟩ => rfl | ⟨1, _⟩ => rfl | ⟨2, _⟩ => rfl

/-- Regrouping back: channel `c` of row `r` is position `(r, c / 64, c % 64)` of the grouped array. -/
theorem idx_v23 (r : Fin 4096) (c : Fin 2048) : idx_main_v23 (ix2 r c) = ix3 r (grp c) (pos c) :=
  funext fun a => Fin.ext (by
    have hr := r.isLt; have hc := c.isLt
    match a with
    | ⟨0, _⟩ => show (r.val * 2048 + c.val) / 2048 = r.val; omega
    | ⟨1, _⟩ => show (r.val * 2048 + c.val) / 64 % 32 = c.val / 64; omega
    | ⟨2, _⟩ => show (r.val * 2048 + c.val) % 64 = c.val % 64; omega)

/-! ## The reference's values, layer by layer -/

section
variable (x : (⟨S4096x2048, .f32⟩ : BufTy).Contents (Elt Ideal)) (w : (⟨S2048x2048, .f32⟩ : BufTy).Contents (Elt Ideal))
  (b γ β : (⟨S2048, .f32⟩ : BufTy).Contents (Elt Ideal))

/-- The linear layer at row `r`, channel `c`. -/
theorem v3_at (r : Fin 4096) (c : Fin 2048) :
    val_main_v3 (F := Ideal) x w b (ix2 r c) = lin x w b r c := by
  rw [val_main_v3_apply, val_main_v0_apply, val_main_v2_apply, val_main_v1_apply, idx_v1_v2]
  simp only [lidx_v0, ridx_v0, Ideal.addf_def]
  rfl

/-- The linear layer regrouped: position `(r, g, k)` holds channel `64 g + k` of row `r`. -/
theorem v4_at (r : Fin 4096) (g : Fin 32) (k : Fin 64) :
    val_main_v4 (F := Ideal) x w b (ix3 r g k) = lin x w b r (chan g k) := by
  rw [val_main_v4_apply, idx_v4, v3_at]

/-- A group's mean. -/
theorem v8_at (r : Fin 4096) (g : Fin 32) (z : Fin 1) :
    val_main_v8 (F := Ideal) x w b (ix3 r g z) = mean (lin x w b r) g := by
  rw [val_main_v8_apply, val_main_v6_apply, val_main_v5_apply, val_main_v7_apply, val_main_cst_0_apply,
    val_main_cst_apply]
  simp only [idx_v5_v6, v4_at, Ideal.hostDivf_def, Ideal.ofBits_def]
  rfl

/-- A group's mean of squares. -/
theorem v13_at (r : Fin 4096) (g : Fin 32) (z : Fin 1) :
    val_main_v13 (F := Ideal) x w b (ix3 r g z) = meansq (lin x w b r) g := by
  rw [val_main_v13_apply, val_main_v11_apply, val_main_v10_apply, val_main_v12_apply, val_main_cst_2_apply,
    val_main_cst_1_apply]
  simp only [idx_v10_v11, val_main_v9_apply, v4_at, Ideal.hostDivf_def, Ideal.mulf_def, Ideal.ofBits_def]
  rfl

/-- A group's variance. -/
theorem v15_at (r : Fin 4096) (g : Fin 32) (z : Fin 1) :
    val_main_v15 (F := Ideal) x w b (ix3 r g z) = var (lin x w b r) g := by
  rw [val_main_v15_apply, val_main_v14_apply, v13_at, v8_at]
  simp only [Ideal.subf_def, Ideal.mulf_def]
  rfl

/-- The normalised value at position `(r, g, k)`. -/
theorem v22_at (r : Fin 4096) (g : Fin 32) (k : Fin 64) :
    val_main_v22 (F := Ideal) x w b (ix3 r g k)
      = (lin x w b r (chan g k) - mean (lin x w b r) g)
          * Ideal.rsqrt (var (lin x w b r) g + Ideal.ofBits .f32 0x3727C5AC#32) := by
  rw [val_main_v22_apply, val_main_v17_apply, val_main_v16_apply, val_main_v21_apply, val_main_v20_apply,
    val_main_v19_apply, val_main_v18_apply, val_main_cst_3_apply, idx_v16, idx_v21, v4_at, v8_at, v15_at]
  simp only [Ideal.subf_def, Ideal.mulf_def, Ideal.addf_def, Ideal.hostUnary_rsqrt_def, Ideal.ofBits_def]

/-- The reference's result at row `r`, channel `c`. -/
theorem v30_at (r : Fin 4096) (c : Fin 2048) :
    val_main_v30 (F := Ideal) x w b γ β (ix2 r c) = norm (lin x w b r) γ β c := by
  rw [val_main_v30_apply, val_main_call0_v4_apply, val_main_call0_v3_apply, val_main_cst_5_apply,
    val_main_call0_v2_apply, val_main_call0_v1_apply, val_main_call0_v0_apply, val_main_cst_4_apply,
    val_main_v29_apply, val_main_v26_apply, val_main_v28_apply, val_main_v27_apply, val_main_v25_apply,
    val_main_v24_apply, val_main_v23_apply, idx_v23, idx_v24_v25, idx_v27_v28, v22_at,
    Cert.GroupNorm.chan_grp_pos]
  simp only [Ideal.minimumf_def, Ideal.maximumf_def, Ideal.addf_def, Ideal.mulf_def, Ideal.ofBits_def]
  rfl

/-- The reference's result array is `G` of the five arguments. -/
theorem ref_is_G :
    Cert.ReferenceIdeal.Read.val_main_v30 (F := Ideal) x w b γ β = Cert.GroupNorm.G x w b γ β := by
  funext i
  obtain ⟨r, c, rfl⟩ : ∃ (r : Fin 4096) (c : Fin 2048), i = ix2 r c := ⟨i 0, i 1, eq_ix2 i⟩
  rw [v30_at]
  rfl

end

end Cert.ReferenceIdeal.RefValue

end
-- ==== Proof.LibFiniteEntry.lean ====
/-
  One "every entry is finite" test of a precondition, read back at an entry.

  A precondition "all float inputs are finite" is, per input, an and-reduction over all axes of the entrywise
  comparison |v| < +∞ (the bound the word 0x7F800000), started from true. When such a reduction is true every
  entry's comparison is true, and an extended real v with max(v, -v) < +∞ is neither +∞ nor -∞: it is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.FiniteEntry

open Idealize.ShloMosaic Idealize.ShloMosaic.ValueIdx

/-- The comparison bound's word denotes +∞. -/
theorem inf_eq : Ideal.ofBits .f32 0x7F800000#32 = ⊤ := by
  simp [Ideal.ofBits, Ideal.ieee]

/-- |v| < +∞ came out true: v is a real number. -/
theorem real_of_abs_lt_inf (v : EReal)
    (h : FloatOps.cmpf (F := Ideal) (φ := .f32) .olt (FloatOps.hostAbsf v) (Ideal.ofBits .f32 0x7F800000#32) = 1#1) :
    ∃ r : ℝ, v = (r : EReal) := by
  have hlt : max v (-v) < ⊤ := by
    by_contra hn
    have h0 : FloatOps.cmpf (F := Ideal) (φ := .f32) .olt (FloatOps.hostAbsf v) (Ideal.ofBits .f32 0x7F800000#32) = 0#1 := by
      show BitVec.ofBool (decide (max v (-v) < Ideal.ofBits .f32 0x7F800000#32)) = 0#1
      rw [inf_eq, decide_eq_false hn]
      rfl
    rw [h0] at h
    exact absurd h (by decide)
  have h1 : v ≠ ⊤ := fun e => by rw [e] at hlt; simp at hlt
  have h2 : v ≠ ⊥ := fun e => by rw [e] at hlt; simp at hlt
  exact ⟨v.toReal, (EReal.coe_toReal h1 h2).symm⟩

/-- A rank-0 array has one index. -/
instance : Subsingleton (⟨0, ![]⟩ : Shape).Idx := ⟨fun a b => funext fun d => d.elim0⟩

/-- The whole test read back: if the and-reduction over all axes of "|a| < +∞" (the bound broadcast from a scalar
    constant) is true, every entry of a is a real number. -/
theorem all_real {s : Shape} {axes : List (Fin s.rank)} (a : FVec Ideal s .f32)
    (hb : (⟨0, ![]⟩ : Shape).BroadcastsInDim s ![]) (hr : s.ReducesTo axes ⟨0, ![]⟩) (hn : 0 < (⟨0, ![]⟩ : Shape).numel)
    (init : IVec ⟨0, ![]⟩ 1)
    (h : Host.reduce IntOp.andi
        (cmpf .olt (Host.absf a) (broadcastInDim s ![] hb (constant (F := Ideal) ⟨0, ![]⟩ .f32 0x7F800000#32))) init hr hn ix0 = 1#1)
    (i : s.Idx) : ∃ r : ℝ, a i = (r : EReal) := by
  have e := Host.reduce_andi_all _ _ _ _ ix0 h i
  rw [cmpf_apply, broadcastInDim_scalar_apply] at e
  exact real_of_abs_lt_inf (a i) e

end Cert.Lib.FiniteEntry

end
-- ==== Proof.FiniteInputs.lean ====
/-
  The precondition read back: every entry of the activations, the weight and the bias is a real number.

  The precondition is one truth value, the conjunction of five tests, one per argument array: the and-reduction over
  all axes of the entrywise comparison |v| < +∞, started from true. A conjunction of truth values is true only if each
  is, so each test is true; and a true test says every entry of its array is a real number (neither +∞ nor −∞).
-/
import proofs.«170412_j1580547965295_2_alg».proof.Defs
import proofs.«170412_j1580547965295_2_alg».proof.Proof.Gen.Pre_finite_inputs
import proofs.«170412_j1580547965295_2_alg».proof.Proof.LibFiniteEntry
import Idealize.ShloMosaic.Lib.ReduceAll
import Idealize.ShloMosaic.Lib.ValueIdx
import Idealize.ShloMosaic.Lib.Affine

noncomputable section

namespace Cert.Proof.Finite

open Idealize.ShloMosaic Idealize.SL.Sem Idealize.ShloMosaic.ValueIdx

/-- If the precondition's value on five arrays is all ones, every entry of the first three is a real number. -/
theorem real_of_pre [Cert.Pre_finite_inputs.Facts]
    (a0 : FVec Ideal Cert.Pre_finite_inputs.S4096x2048 .f32) (a1 : FVec Ideal Cert.Pre_finite_inputs.S2048x2048 .f32)
    (a2 a3 a4 : FVec Ideal Cert.Pre_finite_inputs.S2048 .f32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [Cert.Pre_finite_inputs.fn, Cert.Pre_finite_inputs.fn_part1] at h0
  -- the value at the one index is the conjunction of the five tests, nested to the left
  obtain ⟨h1234, _⟩ := IntOp.andi_eq_one.mp h0
  obtain ⟨h123, _⟩ := IntOp.andi_eq_one.mp h1234
  obtain ⟨h12, h3⟩ := IntOp.andi_eq_one.mp h123
  obtain ⟨h1, h2⟩ := IntOp.andi_eq_one.mp h12
  exact ⟨Cert.Lib.FiniteEntry.all_real a0 _ _ _ _ h1, Cert.Lib.FiniteEntry.all_real a1 _ _ _ _ h2,
    Cert.Lib.FiniteEntry.all_real a2 _ _ _ _ h3⟩

/-- Under the kernel's precondition, on every device, every entry of the activations, the weight and the bias is a
    real number. -/
theorem real_args [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : Cert.KernelIdeal.S4096x2048.Idx, ∃ r : ℝ, m ((c.tc : Thread Cert.KernelIdeal.nD Cert.KernelIdeal.τ).loc Cert.KernelIdeal.main_arg0) i = (r : EReal))
    ∧ (∀ i : Cert.KernelIdeal.S2048x2048.Idx, ∃ r : ℝ, m ((c.tc : Thread Cert.KernelIdeal.nD Cert.KernelIdeal.τ).loc Cert.KernelIdeal.main_arg1) i = (r : EReal))
    ∧ (∀ i : Cert.KernelIdeal.S2048.Idx, ∃ r : ℝ, m ((c.tc : Thread Cert.KernelIdeal.nD Cert.KernelIdeal.τ).loc Cert.KernelIdeal.main_arg2) i = (r : EReal)) :=
  real_of_pre _ _ _ _ _ (hpre c)

end Cert.Proof.Finite

end
-- ==== Proof.RegionEntry.lean ====
/- What the arrays the region finds hold, index by index, at the ideal instance (a float is an extended real and a format
   change is the identity): the weight cast to bf16, the three vectors reshaped to one row, and the block one-hot matrix
   `onehot[ch, g] = (ch / 64 = g)` with its transpose. The one-hot is built by an iota, a floor-divide by 64 spelled out in
   signed word operations, a comparison with a second iota and a conversion to float; the floor-divide is read at one index
   as a scalar expression of the channel's word and decided over the 2048 channels. -/
import proofs.«170412_j1580547965295_2_alg».proof.Proof.Gen.KernelIdeal.Frame
import Idealize.ShloMosaic.Lib.ValueIdx
import Idealize.ShloMosaic.Lib.Pipeline.Value
import Idealize.ShloMosaic.Lib.ValueLayout
import Idealize.ShloMosaic.Lib.IdealHost
import Idealize.ShloMosaic.Lib.StableHlo.Run
import Idealize.ShloMosaic.Lib.Affine
import Idealize.ShloMosaic.PureOps.Ideal.Laws

noncomputable section

namespace Cert.KernelIdeal.Entry

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- The channel index as a column of words: `[ch, 0] ↦ ch`. -/
def colIdx : S2048x1.Idx → BitVec 32 := broadcastInDim S2048x1 ![0] bcast_S2048_S2048x1_0 (iotaInDim S2048 32 0)
/-- The scalar word 64. -/
def w64 : S_.Idx → BitVec 32 := id (constantI S_ 32 64#32)
/-- The truncated quotient of the channel index by 64. -/
def quot : S2048x1.Idx → BitVec 32 := Host.divsi colIdx (broadcastInDim S2048x1 ![] bcast_S_S2048x1 w64)
/-- The floor-divide of the channel index by 64, as the program computes it. -/
def fdivCol : S2048x1.Idx → BitVec 32 :=
  select
    (andi
      (cmpi .ne (signi colIdx) (broadcastInDim S2048x1 ![] bcast_S_S2048x1 (signi w64)))
      (cmpi .ne (Host.remsi colIdx (broadcastInDim S2048x1 ![] bcast_S_S2048x1 w64))
        (broadcastInDim S2048x1 ![] bcast_S_S2048x1 (constantI S_ 32 0#32))))
    (subi quot (broadcastInDim S2048x1 ![] bcast_S_S2048x1 (constantI S_ 32 1#32)))
    quot
/-- The group index as a row of words: `[0, g] ↦ g`. -/
def rowIdx : S1x32.Idx → BitVec 32 := broadcastInDim S1x32 ![1] bcast_S32_S1x32_1 (iotaInDim S32 32 0)
/-- The one-hot matrix as the program computes it. -/
def onehotTerm : S2048x32.Idx → EReal :=
  uitofp (F := Ideal) .f32
    (cmpi .eq (broadcastInDim S2048x32 ![0, 1] bcast_S2048x1_S2048x32_0_1 fdivCol)
      (broadcastInDim S2048x32 ![0, 1] bcast_S1x32_S2048x32_0_1 rowIdx))

/-- The sign word of a 32-bit word: 0, -1 or 1. -/
def sgn (x : BitVec 32) : BitVec 32 := if x = 0 then 0 else if x.msb then -1 else 1
/-- Floor-divide by 64 on one word, as the program computes it: the truncated quotient, less one when the signs of dividend and
    divisor differ and the remainder is not zero. -/
def fdiv64 (x : BitVec 32) : BitVec 32 :=
  Scalar.select
    (IntOp.andi (IntOp.cmpi .ne (sgn x) (sgn 64#32)) (IntOp.cmpi .ne (IntOp.remsi .host x 64#32) 0#32))
    (IntOp.subi (IntOp.divsi .host x 64#32) 1#32)
    (IntOp.divsi .host x 64#32)

/-- On the channel indices the floor-divide word is the word of the natural quotient (decided over the 2048 values). -/
theorem fdiv64_ofNat : ∀ n : Fin 2048, fdiv64 (BitVec.ofNat 32 n.val) = BitVec.ofNat 32 (n.val / 64) := by
  decide +kernel

/-- The column of channel indices read at `(ch, u)`. -/
theorem colIdx_apply (ch : Fin 2048) (u : Fin 1) : colIdx (ix2 ch u) = BitVec.ofNat 32 ch.val := by
  unfold colIdx
  rw [broadcastInDim_apply _ _ _ (ix2 ch u) (ix1 ch) (by intro a; match a with | ⟨0, _⟩ => rfl)]
  rfl

/-- The row of group indices read at `(u, g)`. -/
theorem rowIdx_apply (u : Fin 1) (g : Fin 32) : rowIdx (ix2 u g) = BitVec.ofNat 32 g.val := by
  unfold rowIdx
  rw [broadcastInDim_apply _ _ _ (ix2 u g) (ix1 g) (by intro a; match a with | ⟨0, _⟩ => rfl)]
  rfl

/-- The floor-divide column read at `(ch, u)` is the scalar floor-divide of the channel's word. -/
theorem fdivCol_apply (ch : Fin 2048) (u : Fin 1) : fdivCol (ix2 ch u) = fdiv64 (BitVec.ofNat 32 ch.val) := by
  unfold fdivCol quot
  simp only [select, andi, cmpi, subi, signi, Host.divsi, Host.remsi, broadcastInDim_scalar_apply, colIdx_apply]
  rfl

/-- Two words of naturals below `2 ^ 32` are equal exactly when the naturals are. -/
theorem ofNat32_inj {a b : Nat} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · intro h; rw [h]

/-- The one-hot term read at `(ch, g)`. -/
theorem onehotTerm_apply (ch : Fin 2048) (g : Fin 32) :
    onehotTerm (ix2 ch g : S2048x32.Idx) = if ch.val / 64 = g.val then (1 : EReal) else 0 := by
  unfold onehotTerm
  show FloatOps.uitofp (F := Ideal) .f32 (IntOp.cmpi .eq
      (broadcastInDim S2048x32 ![0, 1] bcast_S2048x1_S2048x32_0_1 fdivCol (ix2 ch g))
      (broadcastInDim S2048x32 ![0, 1] bcast_S1x32_S2048x32_0_1 rowIdx (ix2 ch g))) = _
  rw [broadcastInDim_apply _ _ fdivCol (ix2 ch g) (ix2 ch (0 : Fin 1)) (by intro a; match a with | ⟨0, _⟩ => rfl | ⟨1, _⟩ => rfl),
    broadcastInDim_apply _ _ rowIdx (ix2 ch g) (ix2 (0 : Fin 1) g) (by intro a; match a with | ⟨0, _⟩ => rfl | ⟨1, _⟩ => rfl),
    fdivCol_apply, rowIdx_apply, fdiv64_ofNat ch]
  have hq : ch.val / 64 < 2 ^ 32 := by have := ch.isLt; omega
  have hg : g.val < 2 ^ 32 := by have := g.isLt; omega
  by_cases h : ch.val / 64 = g.val
  · rw [if_pos h, (IntOp.cmpi_eq).mpr ((ofNat32_inj hq hg).mpr h)]
    show (((1#1 : BitVec 1).toNat : ℝ) : EReal) = 1
    norm_num
  · rw [if_neg h]
    have hne : IntOp.cmpi .eq (BitVec.ofNat 32 (ch.val / 64)) (BitVec.ofNat 32 g.val) = 0#1 := by
      rcases BitVec.eq_zero_or_eq_one (IntOp.cmpi .eq (BitVec.ofNat 32 (ch.val / 64)) (BitVec.ofNat 32 g.val)) with h0 | h1
      · exact h0
      · exact absurd ((ofNat32_inj hq hg).mp ((IntOp.cmpi_eq).mp h1)) h
    rw [hne]
    show (((0#1 : BitVec 1).toNat : ℝ) : EReal) = 0
    norm_num

/-- The one-hot array as the composed term of the operations that build it. -/
theorem V_main_v12_term : (V m c main_v12 : S2048x32.Idx → EReal) = onehotTerm := by
  dsimp only [Gen.V]
  simp only [Gen.hostOps0, Gen.hostOps0_1, Gen.hostOps0_2, List.flatten_cons, List.flatten_nil, List.append_nil, List.cons_append, List.nil_append]
  after_results_simp
  rfl

/-- The one-hot array: `onehot[ch, g] = 1` when channel `ch` lies in group `g`, else `0`. -/
theorem V_main_v12_apply (ch : Fin 2048) (g : Fin 32) :
    V m c main_v12 (ix2 ch g : S2048x32.Idx) = if ch.val / 64 = g.val then (1 : EReal) else 0 := by
  have e := V_main_v12_term m c
  exact (congrFun e _).trans (onehotTerm_apply ch g)

/-- The transposed one-hot array as the composed term of the operations that build it. -/
theorem V_main_v13_term :
    (V m c main_v13 : S32x2048.Idx → EReal) = transpose S32x2048 [1, 0] onehotTerm transposes_S2048x32_S32x2048_1_0 := by
  dsimp only [Gen.V]
  simp only [Gen.hostOps0, Gen.hostOps0_1, Gen.hostOps0_2, List.flatten_cons, List.flatten_nil, List.append_nil, List.cons_append, List.nil_append]
  after_results_simp
  rfl

/-- The transposed one-hot array: `onehotT[g, ch] = 1` when channel `ch` lies in group `g`, else `0`. -/
theorem V_main_v13_apply (g : Fin 32) (ch : Fin 2048) :
    V m c main_v13 (ix2 g ch : S32x2048.Idx) = if ch.val / 64 = g.val then (1 : EReal) else 0 := by
  have e := V_main_v13_term m c
  refine (congrFun e _).trans ?_
  rw [transpose_ix2_apply]
  exact onehotTerm_apply ch g

/-- The weight cast to bf16 is the weight itself: at the ideal instance the format change is the identity. -/
theorem V_main_v0_eq :
    (V m c main_v0 : S2048x2048.Idx → EReal) = (m ((c : Thread nD τ).loc main_arg1) : S2048x2048.Idx → EReal) := by
  dsimp only [Gen.V]
  simp only [Gen.hostOps0, Gen.hostOps0_1, Gen.hostOps0_2, List.flatten_cons, List.flatten_nil, List.append_nil, List.cons_append, List.nil_append]
  after_results_simp
  rfl

/-- The bias reshaped `[2048] → [1, 2048]`, as the shape cast of the argument array. -/
theorem V_main_v1_term :
    (V m c main_v1 : S1x2048.Idx → EReal)
      = shapeCast S1x2048 (m ((c : Thread nD τ).loc main_arg2) : S2048.Idx → EReal) shapeCasts_S2048_S1x2048 := by
  dsimp only [Gen.V]
  simp only [Gen.hostOps0, Gen.hostOps0_1, Gen.hostOps0_2, List.flatten_cons, List.flatten_nil, List.append_nil, List.cons_append, List.nil_append]
  after_results_simp
  rfl

/-- The reshaped bias read at `(0, q)` is the bias at `q`. -/
theorem V_main_v1_apply (q : Fin 2048) :
    V m c main_v1 (ix2 (0 : Fin 1) q : S1x2048.Idx) = m ((c : Thread nD τ).loc main_arg2) (ix1 q : S2048.Idx) := by
  have e := V_main_v1_term m c
  refine (congrFun e _).trans ?_
  exact shapeCast_a_1a_apply _ _ 0 q

/-- The group-norm weight reshaped `[2048] → [1, 2048]`, as the shape cast of the argument array. -/
theorem V_main_v2_term :
    (V m c main_v2 : S1x2048.Idx → EReal)
      = shapeCast S1x2048 (m ((c : Thread nD τ).loc main_arg3) : S2048.Idx → EReal) shapeCasts_S2048_S1x2048 := by
  dsimp only [Gen.V]
  simp only [Gen.hostOps0, Gen.hostOps0_1, Gen.hostOps0_2, List.flatten_cons, List.flatten_nil, List.append_nil, List.cons_append, List.nil_append]
  after_results_simp
  rfl

/-- The reshaped group-norm weight read at `(0, q)` is the weight at `q`. -/
theorem V_main_v2_apply (q : Fin 2048) :
    V m c main_v2 (ix2 (0 : Fin 1) q : S1x2048.Idx) = m ((c : Thread nD τ).loc main_arg3) (ix1 q : S2048.Idx) := by
  have e := V_main_v2_term m c
  refine (congrFun e _).trans ?_
  exact shapeCast_a_1a_apply _ _ 0 q

/-- The group-norm bias reshaped `[2048] → [1, 2048]`, as the shape cast of the argument array. -/
theorem V_main_v3_term :
    (V m c main_v3 : S1x2048.Idx → EReal)
      = shapeCast S1x2048 (m ((c : Thread nD τ).loc main_arg4) : S2048.Idx → EReal) shapeCasts_S2048_S1x2048 := by
  dsimp only [Gen.V]
  simp only [Gen.hostOps0, Gen.hostOps0_1, Gen.hostOps0_2, List.flatten_cons, List.flatten_nil, List.append_nil, List.cons_append, List.nil_append]
  after_results_simp
  rfl

/-- The reshaped group-norm bias read at `(0, q)` is the bias at `q`. -/
theorem V_main_v3_apply (q : Fin 2048) :
    V m c main_v3 (ix2 (0 : Fin 1) q : S1x2048.Idx) = m ((c : Thread nD τ).loc main_arg4) (ix1 q : S2048.Idx) := by
  have e := V_main_v3_term m c
  refine (congrFun e _).trans ?_
  exact shapeCast_a_1a_apply _ _ 0 q

end Cert.KernelIdeal.Entry
end
-- ==== Proof.LibRealSum.lean ====
/-
  Finite sums of real numbers taken inside the extended reals.

  The extended reals do not distribute (∞ · (1 + (-1)) is not ∞ + (-∞)), so a factor cannot in general be moved
  across a sum there. When every summand and the factor are real numbers it can: the sum of the reals' images is the
  image of the real sum, and the real numbers are a field. The lemmas here are that statement in the shape a
  contraction with folded scales needs: Σ_k (a_k · s) · (b_k · t) = (Σ_k a_k · b_k) · (t · s).
-/
import Idealize.ShloMosaic.PureOps.Ideal

noncomputable section

namespace Cert.Lib.RealSum

/-- A finite sum of real numbers, taken in the extended reals, is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Σ_k (a_k · s) · (b_k · t) = (Σ_k a_k · b_k) · (t · s) for real numbers a_k, b_k, s, t, read in the extended reals:
    a scale on each operand of a contraction is one scale on the contraction. -/
theorem sum_rescale_real {n : ℕ} (a b : Fin n → ℝ) (s t : ℝ) :
    ∑ k, (((a k : ℝ) : EReal) * (s : EReal)) * (((b k : ℝ) : EReal) * (t : EReal))
      = (∑ k, ((a k : ℝ) : EReal) * ((b k : ℝ) : EReal)) * ((t : EReal) * (s : EReal)) := by
  simp only [← EReal.coe_mul]
  rw [coe_sum, coe_sum, ← EReal.coe_mul, Finset.sum_mul]
  exact congrArg _ (Finset.sum_congr rfl fun k _ => by ring)

/-- The same for extended reals each known to be a real number. -/
theorem sum_rescale {n : ℕ} (q w : Fin n → EReal) (s t : EReal)
    (hq : ∀ k, ∃ r : ℝ, q k = (r : EReal)) (hw : ∀ k, ∃ r : ℝ, w k = (r : EReal))
    (hs : ∃ r : ℝ, s = (r : EReal)) (ht : ∃ r : ℝ, t = (r : EReal)) :
    ∑ k, (q k * s) * (w k * t) = (∑ k, q k * w k) * (t * s) := by
  choose a ha using hq
  choose b hb using hw
  obtain ⟨s', rfl⟩ := hs
  obtain ⟨t', rfl⟩ := ht
  simp only [ha, hb]
  exact sum_rescale_real a b s' t'

end Cert.Lib.RealSum

end
-- ==== Proof.LibSumIndex.lean ====
/-
  Finite sums re-indexed, in any additive commutative monoid (so on the extended reals with no finiteness):

  * `sum_blocks`: a sum over `Fin N` with `N = J * B` is the double sum over its `J` consecutive blocks of length
    `B`, position `a * B + b` — what joins a sum over one long axis (a flattened `x.reshape(n, -1)`, or all the rows of
    an array) to the same sum taken block by block (a grid walking the axis, or the axis split in two);
  * `sum_idx4`, `sum_idx1`: a sum over the index set of a rank-4 (rank-1) shape is the iterated sum over its
    coordinates, with the index rebuilt by `ix4` (`ix1`) — the companions of the library's `sum_idx2`.
-/
import Idealize.ShloMosaic.Lib.ValueIdx

noncomputable section

open scoped BigOperators

namespace Cert.LibSumIndex

open Idealize.ShloMosaic Idealize.ShloMosaic.ValueIdx

/-- A sum over the first `J * B` indices is the sum over its `J` consecutive blocks of length `B`. -/
theorem sum_blocks {M : Type*} [AddCommMonoid M] (J B N : ℕ) (hN : J * B = N) (f : Fin N → M) :
    ∑ k, f k = ∑ a : Fin J, ∑ b : Fin B, f ⟨a.val * B + b.val, by
      subst hN
      calc a.val * B + b.val < a.val * B + B := Nat.add_lt_add_left b.isLt _
        _ = (a.val + 1) * B := (Nat.succ_mul _ _).symm
        _ ≤ J * B := Nat.mul_le_mul_right _ a.isLt⟩ := by
  subst hN
  rw [← Equiv.sum_comp finProdFinEquiv f, Fintype.sum_prod_type]
  refine Finset.sum_congr rfl fun a _ => Finset.sum_congr rfl fun b _ => congrArg f (Fin.ext ?_)
  show b.val + B * a.val = a.val * B + b.val
  rw [Nat.mul_comm, Nat.add_comm]

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    ⟨fun i => i 0, fun a => ix1 a, fun i => (eq_ix1 i).symm, fun _ => rfl⟩
  rw [← Equiv.sum_comp e.symm f]
  rfl

end Cert.LibSumIndex

end
-- ==== Proof.GroupAlgebra.lean ====
/-
  The kernel's arrangement of a normalised row, and why it is the specification's.

  The kernel never reshapes a row into groups. It multiplies the row by a block one-hot matrix `M c g = [c / 64 = g]`
  (2048 × 32) to get each group's sum, scales by the word of 1/64, clamps the variance at zero, and multiplies the
  per-group mean and inverse deviation by the transpose `Mᵀ g c` to spread them back over the channels. Three facts
  join this to the specification:
  * a sum over all 2048 channels weighted by column `g` of `M` is the sum over the 64 channels of group `g`
    (split the channels into 32 consecutive blocks of 64; only block `g` survives), and a sum over the 32 groups
    weighted by column `c` of `Mᵀ` picks the entry of the group `c / 64`; both hold in the extended reals with no
    finiteness, since `0 · v = 0` and `1 · v = v` there;
  * the word 0x3C800000 denotes exactly 1/64 and the word 0x42800000 exactly 64, and dividing an extended real by the
    real 64 is multiplying it by 1/64;
  * for a row of REAL numbers the variance `(∑ y²)/64 − ((∑ y)/64)²` is nonnegative (Cauchy–Schwarz:
    `(∑ y)² ≤ 64 · ∑ y²`), so the kernel's clamp `max · 0` changes nothing. This is the one place finiteness is used.
-/
import proofs.«170412_j1580547965295_2_alg».proof.Proof.GroupNormSpec
import proofs.«170412_j1580547965295_2_alg».proof.Proof.LibRealSum
import proofs.«170412_j1580547965295_2_alg».proof.Proof.LibSumIndex
import Mathlib.Algebra.Order.Chebyshev

noncomputable section

namespace Cert.GroupNorm

open Idealize.ShloMosaic Idealize.ShloMosaic.ValueIdx

/-! ## The three words that are evaluated -/

theorem word_zero : Ideal.ofBits .f32 0x00000000#32 = 0 := by
  simp [Ideal.ofBits, Ideal.ieee]

theorem word_64 : Ideal.ofBits .f32 0x42800000#32 = ((64 : ℝ) : EReal) := by
  simp [Ideal.ofBits, Ideal.ieee, -EReal.coe_mul]; norm_num

theorem word_inv64 : Ideal.ofBits .f32 0x3C800000#32 = ((1 / 64 : ℝ) : EReal) := by
  simp [Ideal.ofBits, Ideal.ieee, -EReal.coe_mul]; norm_num

/-- Dividing by the word of 64, from the zero word's sum, is scaling the sum by the word of 1/64. -/
theorem div64_eq (s : EReal) :
    Ideal.div (Ideal.ofBits .f32 0x00000000#32 + s) (Ideal.ofBits .f32 0x42800000#32) = s * Ideal.ofBits .f32 0x3C800000#32 := by
  rw [word_zero, zero_add, word_64, word_inv64, Ideal.div_coe (by norm_num : (64 : ℝ) ≠ 0)]

/-! ## Sums against the block one-hot matrix and its transpose -/

/-- A sum over all channels weighted by the indicator of group `g` is the sum over group `g`'s 64 channels. -/
theorem sum_indicator_group (f : Fin 2048 → EReal) (g : Fin 32) :
    ∑ c : Fin 2048, f c * (if c.val / 64 = g.val then (1 : EReal) else 0) = ∑ k : Fin 64, f (chan g k) := by
  rw [Cert.LibSumIndex.sum_blocks 32 64 2048 rfl, Finset.sum_eq_single g]
  · refine Finset.sum_congr rfl fun k _ => ?_
    have h : (g.val * 64 + k.val) / 64 = g.val := by have := k.isLt; omega
    show f (chan g k) * (if (g.val * 64 + k.val) / 64 = g.val then (1 : EReal) else 0) = _
    rw [if_pos h, mul_one]
  · intro a _ hne
    refine Finset.sum_eq_zero fun k _ => ?_
    have h : ¬ (a.val * 64 + k.val) / 64 = g.val := by
      have := k.isLt
      intro e
      exact hne (Fin.ext (by omega))
    show f (chan a k) * (if (a.val * 64 + k.val) / 64 = g.val then (1 : EReal) else 0) = 0
    rw [if_neg h, mul_zero]
  · intro h; exact absurd (Finset.mem_univ g) h

/-- A sum over the groups weighted by the indicator of channel `c`'s group picks that group's entry. -/
theorem sum_indicator_channel (v : Fin 32 → EReal) (c : Fin 2048) :
    ∑ g : Fin 32, v g * (if c.val / 64 = g.val then (1 : EReal) else 0) = v (grp c) := by
  rw [Finset.sum_eq_single (grp c)]
  · have h : c.val / 64 = (grp c).val := rfl
    rw [if_pos h, mul_one]
  · intro g _ hne
    have h : ¬ c.val / 64 = g.val := fun e => hne (Fin.ext e.symm)
    rw [if_neg h, mul_zero]
  · intro h; exact absurd (Finset.mem_univ _) h

/-! ## The kernel's arrangement -/

section Kernel

variable (M : Fin 2048 → Fin 32 → EReal) (Mt : Fin 32 → Fin 2048 → EReal)

/-- A group's mean as the kernel takes it: the row times column `g` of the one-hot matrix, scaled by the word of 1/64. -/
def kmean (y : Fin 2048 → EReal) (g : Fin 32) : EReal :=
  (∑ c : Fin 2048, y c * M c g) * Ideal.ofBits .f32 0x3C800000#32

/-- A group's mean of squares, the same way. -/
def kmeansq (y : Fin 2048 → EReal) (g : Fin 32) : EReal :=
  (∑ c : Fin 2048, (y c * y c) * M c g) * Ideal.ofBits .f32 0x3C800000#32

/-- The kernel's variance: clamped at the zero word. -/
def kvar (y : Fin 2048 → EReal) (g : Fin 32) : EReal :=
  max (kmeansq M y g - kmean M y g * kmean M y g) (Ideal.ofBits .f32 0x00000000#32)

/-- The kernel's normalised, scaled, shifted and clipped row at channel `c`: mean and inverse deviation spread back over
    the channels by the transposed one-hot matrix. -/
def knorm (y : Fin 2048 → EReal) (γ β : SC.Idx → EReal) (c : Fin 2048) : EReal :=
  min (Ideal.ofBits .f32 0x3F800000#32) (max (Ideal.ofBits .f32 0xBF800000#32)
    (((y c - ∑ g : Fin 32, kmean M y g * Mt g c)
        * ∑ g : Fin 32, Ideal.rsqrt (kvar M y g + Ideal.ofBits .f32 0x3727C5AC#32) * Mt g c) * γ (ix1 c) + β (ix1 c)))

variable {M Mt}
variable (hM : ∀ c g, M c g = if c.val / 64 = g.val then (1 : EReal) else 0)
variable (hMt : ∀ g c, Mt g c = if c.val / 64 = g.val then (1 : EReal) else 0)

include hM in
theorem kmean_eq (y : Fin 2048 → EReal) (g : Fin 32) : kmean M y g = mean y g := by
  unfold kmean mean
  rw [div64_eq]
  simp only [hM]
  rw [sum_indicator_group]

include hM in
theorem kmeansq_eq (y : Fin 2048 → EReal) (g : Fin 32) : kmeansq M y g = meansq y g := by
  unfold kmeansq meansq
  rw [div64_eq]
  simp only [hM]
  rw [sum_indicator_group (fun c => y c * y c)]

/-- For a row of real numbers the variance is nonnegative, so clamping it at zero changes nothing. -/
theorem var_clamp (y : Fin 2048 → EReal) (hy : ∀ c, ∃ r : ℝ, y c = (r : EReal)) (g : Fin 32) :
    max (var y g) (Ideal.ofBits .f32 0x00000000#32) = var y g := by
  choose yr hyr using hy
  have hs1 : ∑ k : Fin 64, y (chan g k) = ((∑ k : Fin 64, yr (chan g k) : ℝ) : EReal) := by
    simp only [hyr]; exact Cert.Lib.RealSum.coe_sum _ _
  have hs2 : ∑ k : Fin 64, y (chan g k) * y (chan g k) = ((∑ k : Fin 64, yr (chan g k) * yr (chan g k) : ℝ) : EReal) := by
    simp only [hyr, ← EReal.coe_mul]; exact Cert.Lib.RealSum.coe_sum _ _
  have hvar : var y g = (((∑ k : Fin 64, yr (chan g k) * yr (chan g k)) * (1 / 64)
      - ((∑ k : Fin 64, yr (chan g k)) * (1 / 64)) * ((∑ k : Fin 64, yr (chan g k)) * (1 / 64)) : ℝ) : EReal) := by
    unfold var meansq mean
    rw [div64_eq, div64_eq, hs1, hs2, word_inv64]
    simp only [← EReal.coe_mul, ← EReal.coe_sub]
  have hcs : (∑ k : Fin 64, yr (chan g k)) ^ 2 ≤ 64 * ∑ k : Fin 64, yr (chan g k) ^ 2 := by
    have := sq_sum_le_card_mul_sum_sq (s := (Finset.univ : Finset (Fin 64))) (f := fun k => yr (chan g k))
    simpa using this
  have hnn : (0 : ℝ) ≤ (∑ k : Fin 64, yr (chan g k) * yr (chan g k)) * (1 / 64)
      - ((∑ k : Fin 64, yr (chan g k)) * (1 / 64)) * ((∑ k : Fin 64, yr (chan g k)) * (1 / 64)) := by
    have e : ∑ k : Fin 64, yr (chan g k) ^ 2 = ∑ k : Fin 64, yr (chan g k) * yr (chan g k) :=
      Finset.sum_congr rfl fun k _ => sq _
    rw [e] at hcs
    nlinarith [hcs]
  rw [hvar, word_zero]
  exact max_eq_left (by exact_mod_cast hnn)

include hM hMt in
/-- On a row of real numbers the kernel's arrangement is the specification's. -/
theorem knorm_eq (y : Fin 2048 → EReal) (hy : ∀ c, ∃ r : ℝ, y c = (r : EReal)) (γ β : SC.Idx → EReal) (c : Fin 2048) :
    knorm M Mt y γ β c = norm y γ β c := by
  have hkv : ∀ g, kvar M y g = var y g := fun g => by
    unfold kvar
    rw [kmeansq_eq hM, kmean_eq hM]
    exact var_clamp y hy g
  unfold knorm norm
  simp only [hMt, hkv, kmean_eq hM]
  rw [sum_indicator_channel (fun g => mean y g) c,
    sum_indicator_channel (fun g => Ideal.rsqrt (var y g + Ideal.ofBits .f32 0x3727C5AC#32)) c]

end Kernel

end Cert.GroupNorm

end
-- ==== Proof.LibMatmulNT.lean ====
/-
  A rank-2 by rank-2 matrix product against a TRANSPOSED right operand, read at an index, at the ideal instance.

  For dimension numbers that contract the left operand's axis 1 with the right operand's axis 1 (a[M, K] against
  b[N, K], the product a · bᵀ with no transpose operation) and have no batch axis, the entry (r, c) of the product
  into a zero accumulator is the plain sum over k of a(r, k) * b(c, k) on the extended reals. The two side facts
  about the free axes (hl0, hr0) are decided once per literal record of dimension numbers.
-/
import Idealize.ShloMosaic.PureOps.Ideal.Laws
import Idealize.ShloMosaic.Lib.ValueIdx

noncomputable section

namespace Idealize.ShloMosaic.MatmulNT

open Idealize.ShloMosaic Idealize.ShloMosaic.ValueIdx

variable {M K N : Nat} {φ₁ φ₂ : FTy}

/-- The operand indices of such a product at output index `i` and contraction position `k` are (i 0, k) and (i 1, k). -/
theorem operand_indices
    (d : DotDims (⟨2, ![M, K]⟩ : Shape) (⟨2, ![N, K]⟩ : Shape) (⟨2, ![M, N]⟩ : Shape))
    (hcl : d.lhsContracting = [1]) (hcr : d.rhsContracting = [1])
    (hrk : d.contr.rank = 1) (hs : d.contr.size ⟨0, by omega⟩ = K)
    (hl0 : ∀ i q, (d.lhsIdx i q 0).val = (i 0).val) (hr0 : ∀ i q, (d.rhsIdx i q 0).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 (i 1) k := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact hr0 _ _
    | ⟨1, _⟩ => exact (d.rhsIdx_val_of_single hcr _ _).trans hk

/-- A kernel's product a · bᵀ into the zero accumulator, entry by entry. -/
theorem matmul_zero_apply
    (d : DotDims (⟨2, ![M, K]⟩ : Shape) (⟨2, ![N, K]⟩ : Shape) (⟨2, ![M, N]⟩ : Shape)) (prec : Option ContractPrecision)
    (hcl : d.lhsContracting = [1]) (hcr : d.rhsContracting = [1])
    (hrk : d.contr.rank = 1) (hs : d.contr.size ⟨0, by omega⟩ = K)
    (hl0 : ∀ i q, (d.lhsIdx i q 0).val = (i 0).val) (hr0 : ∀ i q, (d.rhsIdx i q 0).val = (i 1).val)
    (a : FVec Ideal (⟨2, ![M, K]⟩ : Shape) φ₁) (b : FVec Ideal (⟨2, ![N, K]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 (i 1) k) := by
  rw [Ideal.matmul_constant_zero_apply, ← Equiv.sum_comp (contrEquiv1 d K hrk hs).symm]
  refine Finset.sum_congr rfl fun k _ => ?_
  obtain ⟨el, er⟩ := operand_indices d hcl hcr hrk hs hl0 hr0 i k
  rw [el, er]
  rfl

end Idealize.ShloMosaic.MatmulNT

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.KernelRow.lean ====
/-
  One block of the kernel's body, read entry by entry on the extended reals.

  At a grid point the body holds a block of 256 rows of the activations (`P0`), the whole weight (`P1`), the bias row
  (`P2`), the block one-hot matrix (`P3`, 2048 × 32) and its transpose (`P4`), and the scale and shift rows (`P5`, `P6`).
  Its arithmetic is a composition of whole-block operations: the linear layer (a product contracting the second axis
  of both operands, plus the bias row broadcast down the rows); group sums of the layer and of its square as products
  with the one-hot matrix; the scale by the word of 1/64; the clamped variance and its inverse square root; two
  products with the transposed one-hot matrix that spread the group means and inverse deviations back over the
  channels; then centring, scaling, the scale row, the shift row and the clip. Each stage is named here as a vector
  and read at an index `(p, q)`; at the ideal instance every product into the zero accumulator is the plain sum of
  products, a change of format is the identity, and the stages compose to the row function `knorm` of
  GroupAlgebra.lean applied to row `p` of the linear layer.
-/
import proofs.«170412_j1580547965295_2_alg».proof.Proof.Gen.KernelIdeal.Skeleton
import proofs.«170412_j1580547965295_2_alg».proof.Proof.GroupAlgebra
import proofs.«170412_j1580547965295_2_alg».proof.Proof.LibMatmulNT
import proofs.«170412_j1580547965295_2_alg».proof.Proof.LibMatmulRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.GroupNorm

/-! ## The three products' operand indices -/

/-- The activations times the transposed weight: both operands contracted along their second axis. -/
abbrev dLin := dot_S256x2048_S2048x2048_S256x2048_1_1_0_0_n_n
/-- A row block times the one-hot matrix. -/
abbrev dGrp := dot_S256x2048_S2048x32_S256x32_1_0_0_1_n_n
/-- Per-group values times the transposed one-hot matrix. -/
abbrev dSpr := dot_S256x32_S32x2048_S256x2048_1_0_0_1_n_n

theorem dLin_l0 (i : S256x2048.Idx) (q : dLin.contr.Idx) : (dLin.lhsIdx i q 0).val = (i 0).val := by
  unfold DotDims.lhsIdx
  rw [dif_neg (show ¬(0 : Fin S256x2048.rank) ∈ dLin.lhsBatch by decide), dif_pos (show (0 : Fin S256x2048.rank) ∈ dLin.lhsNonContracting by decide)]
  rfl
theorem dLin_r0 (i : S256x2048.Idx) (q : dLin.contr.Idx) : (dLin.rhsIdx i q 0).val = (i 1).val := by
  unfold DotDims.rhsIdx
  rw [dif_neg (show ¬(0 : Fin S2048x2048.rank) ∈ dLin.rhsBatch by decide), dif_pos (show (0 : Fin S2048x2048.rank) ∈ dLin.rhsNonContracting by decide)]
  rfl
theorem dGrp_l0 (i : S256x32.Idx) (q : dGrp.contr.Idx) : (dGrp.lhsIdx i q 0).val = (i 0).val := by
  unfold DotDims.lhsIdx
  rw [dif_neg (show ¬(0 : Fin S256x2048.rank) ∈ dGrp.lhsBatch by decide), dif_pos (show (0 : Fin S256x2048.rank) ∈ dGrp.lhsNonContracting by decide)]
  rfl
theorem dGrp_r1 (i : S256x32.Idx) (q : dGrp.contr.Idx) : (dGrp.rhsIdx i q 1).val = (i 1).val := by
  unfold DotDims.rhsIdx
  rw [dif_neg (show ¬(1 : Fin S2048x32.rank) ∈ dGrp.rhsBatch by decide), dif_pos (show (1 : Fin S2048x32.rank) ∈ dGrp.rhsNonContracting by decide)]
  rfl
theorem dSpr_l0 (i : S256x2048.Idx) (q : dSpr.contr.Idx) : (dSpr.lhsIdx i q 0).val = (i 0).val := by
  unfold DotDims.lhsIdx
  rw [dif_neg (show ¬(0 : Fin S256x32.rank) ∈ dSpr.lhsBatch by decide), dif_pos (show (0 : Fin S256x32.rank) ∈ dSpr.lhsNonContracting by decide)]
  rfl
theorem dSpr_r1 (i : S256x2048.Idx) (q : dSpr.contr.Idx) : (dSpr.rhsIdx i q 1).val = (i 1).val := by
  unfold DotDims.rhsIdx
  rw [dif_neg (show ¬(1 : Fin S32x2048.rank) ∈ dSpr.rhsBatch by decide), dif_pos (show (1 : Fin S32x2048.rank) ∈ dSpr.rhsNonContracting by decide)]
  rfl

/-! ## The linear layer on a block of 256 rows -/

/-- The block's linear layer: the row block times the transposed weight into the zero accumulator, plus the bias row
    broadcast over the rows. -/
def linv (P0 : Vec Ideal S256x2048 .f32) (P1 : Vec Ideal S2048x2048 .bf16) (P2 : Vec Ideal S1x2048 .f32) : FVec Ideal S256x2048 .f32 :=
  addf (matmul dLin none (truncf .bf16 P0 Facts₀.bitsLt_bf16_f32 : FVec Ideal S256x2048 .bf16)
      (shapeCast S2048x2048 P1 Facts₀.shapeCasts_S2048x2048_S2048x2048 : FVec Ideal S2048x2048 .bf16) (constant S256x2048 .f32 0x00000000#32))
    (broadcastTo S256x2048 (shapeCast S1x2048 P2 Facts₀.shapeCasts_S1x2048_S1x2048 : FVec Ideal S1x2048 .f32) Facts₀.broadcasts_S1x2048_S256x2048)

/-- At row `p` of the block and channel `c`: the row's inner product with row `c` of the weight, plus the bias. -/
theorem linv_apply (P0 : Vec Ideal S256x2048 .f32) (P1 : Vec Ideal S2048x2048 .bf16) (P2 : Vec Ideal S1x2048 .f32) (p : Fin 256) (c : Fin 2048) :
    linv P0 P1 P2 (ix2 p c) = (∑ k : Fin 2048, P0 (ix2 p k) * P1 (ix2 c k)) + P2 (ix2 (0 : Fin 1) c) := by
  unfold linv
  rw [addf_apply, shapeCast_self, shapeCast_self, broadcastTo_1b_ab_apply]
  exact congrArg (· + P2 (ix2 (0 : Fin 1) c))
    (MatmulNT.matmul_zero_apply (φ₁ := .bf16) (φ₂ := .bf16) dLin none rfl rfl rfl rfl dLin_l0 dLin_r0
      (truncf .bf16 P0 Facts₀.bitsLt_bf16_f32) P1 (ix2 p c))

/-! ## Group statistics of the block, through the one-hot matrix -/

/-- A row block times the one-hot matrix `P3`, into the zero accumulator: per-row, per-group sums. -/
def gsumv (P3 : Vec Ideal S2048x32 .f32) (Y : FVec Ideal S256x2048 .f32) : FVec Ideal S256x32 .f32 :=
  matmul dGrp (some .fp32) Y (shapeCast S2048x32 P3 Facts₀.shapeCasts_S2048x32_S2048x32 : FVec Ideal S2048x32 .f32) (constant S256x32 .f32 0x00000000#32)

theorem gsumv_apply (P3 : Vec Ideal S2048x32 .f32) (Y : FVec Ideal S256x2048 .f32) (p : Fin 256) (g : Fin 32) :
    gsumv P3 Y (ix2 p g) = ∑ c : Fin 2048, Y (ix2 p c) * P3 (ix2 c g) := by
  unfold gsumv
  rw [shapeCast_self]
  exact MatmulRows.matmul_zero_apply (φ₁ := .f32) (φ₂ := .f32) dGrp (some .fp32) rfl rfl rfl rfl dGrp_l0 dGrp_r1 Y P3 (ix2 p g)

/-- Per-group values times the transposed one-hot matrix `P4`, into the zero accumulator: spread back over the channels. -/
def spreadv (P4 : Vec Ideal S32x2048 .f32) (Z : FVec Ideal S256x32 .f32) : FVec Ideal S256x2048 .f32 :=
  matmul dSpr (some .fp32) Z (shapeCast S32x2048 P4 Facts₀.shapeCasts_S32x2048_S32x2048 : FVec Ideal S32x2048 .f32) (constant S256x2048 .f32 0x00000000#32)

theorem spreadv_apply (P4 : Vec Ideal S32x2048 .f32) (Z : FVec Ideal S256x32 .f32) (p : Fin 256) (q : Fin 2048) :
    spreadv P4 Z (ix2 p q) = ∑ g : Fin 32, Z (ix2 p g) * P4 (ix2 g q) := by
  unfold spreadv
  rw [shapeCast_self]
  exact MatmulRows.matmul_zero_apply (φ₁ := .f32) (φ₂ := .f32) dSpr (some .fp32) rfl rfl rfl rfl dSpr_l0 dSpr_r1 Z P4 (ix2 p q)

/-- The block's group means: group sums scaled by the word of 1/64. -/
def meanv (P3 : Vec Ideal S2048x32 .f32) (Y : FVec Ideal S256x2048 .f32) : FVec Ideal S256x32 .f32 :=
  mulf (gsumv P3 Y) (broadcast S256x32 (Scalar.ofBits .f32 0x3C800000#32))

/-- The block's group means of squares. -/
def meansqv (P3 : Vec Ideal S2048x32 .f32) (Y : FVec Ideal S256x2048 .f32) : FVec Ideal S256x32 .f32 :=
  mulf (gsumv P3 (mulf Y Y)) (broadcast S256x32 (Scalar.ofBits .f32 0x3C800000#32))

/-- The block's clamped group variances. -/
def varv (P3 : Vec Ideal S2048x32 .f32) (Y : FVec Ideal S256x2048 .f32) : FVec Ideal S256x32 .f32 :=
  maximumf (subf (meansqv P3 Y) (mulf (meanv P3 Y) (meanv P3 Y))) (broadcast S256x32 (Scalar.ofBits .f32 0x00000000#32))

/-- The block's group inverse deviations. -/
def istdv (P3 : Vec Ideal S2048x32 .f32) (Y : FVec Ideal S256x2048 .f32) : FVec Ideal S256x32 .f32 :=
  rsqrt (addf (varv P3 Y) (broadcast S256x32 (Scalar.ofBits .f32 0x3727C5AC#32)))

/-- Row `p` of the block, as a function of the channel. -/
abbrev rowOf (Y : FVec Ideal S256x2048 .f32) (p : Fin 256) : Fin 2048 → EReal := fun c => Y (ix2 p c)

/-- The one-hot operand as a function of channel and group, and its transpose of group and channel. -/
abbrev matOf (P3 : Vec Ideal S2048x32 .f32) : Fin 2048 → Fin 32 → EReal := fun c g => P3 (ix2 c g)
abbrev matTOf (P4 : Vec Ideal S32x2048 .f32) : Fin 32 → Fin 2048 → EReal := fun g c => P4 (ix2 g c)

theorem meanv_apply (P3 : Vec Ideal S2048x32 .f32) (Y : FVec Ideal S256x2048 .f32) (p : Fin 256) (g : Fin 32) :
    meanv P3 Y (ix2 p g) = kmean (matOf P3) (rowOf Y p) g := by
  unfold meanv kmean
  rw [mulf_apply, gsumv_apply]
  rfl

theorem meansqv_apply (P3 : Vec Ideal S2048x32 .f32) (Y : FVec Ideal S256x2048 .f32) (p : Fin 256) (g : Fin 32) :
    meansqv P3 Y (ix2 p g) = kmeansq (matOf P3) (rowOf Y p) g := by
  unfold meansqv kmeansq
  rw [mulf_apply, gsumv_apply]
  rfl

theorem varv_apply (P3 : Vec Ideal S2048x32 .f32) (Y : FVec Ideal S256x2048 .f32) (p : Fin 256) (g : Fin 32) :
    varv P3 Y (ix2 p g) = kvar (matOf P3) (rowOf Y p) g := by
  unfold varv kvar
  rw [maximumf_apply, subf_apply, mulf_apply, meansqv_apply, meanv_apply]
  rfl

theorem istdv_apply (P3 : Vec Ideal S2048x32 .f32) (Y : FVec Ideal S256x2048 .f32) (p : Fin 256) (g : Fin 32) :
    istdv P3 Y (ix2 p g) = Ideal.rsqrt (kvar (matOf P3) (rowOf Y p) g + Ideal.ofBits .f32 0x3727C5AC#32) := by
  unfold istdv
  show Ideal.rsqrt ((addf (varv P3 Y) (broadcast S256x32 (Scalar.ofBits .f32 0x3727C5AC#32))) (ix2 p g)) = _
  rw [addf_apply, varv_apply]
  rfl

/-! ## The payload -/

/-- The stored block before the shift and the clip: the linear layer, centred by the spread-back means, scaled by the
    spread-back inverse deviations and by the scale row. -/
def scaledv (P0 : Vec Ideal S256x2048 .f32) (P1 : Vec Ideal S2048x2048 .bf16) (P2 : Vec Ideal S1x2048 .f32) (P3 : Vec Ideal S2048x32 .f32)
    (P4 : Vec Ideal S32x2048 .f32) (P5 : Vec Ideal S1x2048 .f32) : FVec Ideal S256x2048 .f32 :=
  mulf (mulf (subf (linv P0 P1 P2) (spreadv P4 (meanv P3 (linv P0 P1 P2)))) (spreadv P4 (istdv P3 (linv P0 P1 P2))))
    (broadcastTo S256x2048 (shapeCast S1x2048 P5 Facts₀.shapeCasts_S1x2048_S1x2048 : FVec Ideal S1x2048 .f32) Facts₀.broadcasts_S1x2048_S256x2048)

/-- The body's arithmetic is that composition. -/
theorem pay2_eq (P0 : Vec Ideal S256x2048 .f32) (P1 : Vec Ideal S2048x2048 .bf16) (P2 : Vec Ideal S1x2048 .f32) (P3 : Vec Ideal S2048x32 .f32)
    (P4 : Vec Ideal S32x2048 .f32) (P5 : Vec Ideal S1x2048 .f32) :
    k0_pay2 (F := Ideal) P0 P1 P2 P3 P4 P5 = scaledv P0 P1 P2 P3 P4 P5 := rfl

theorem scaledv_apply (P0 : Vec Ideal S256x2048 .f32) (P1 : Vec Ideal S2048x2048 .bf16) (P2 : Vec Ideal S1x2048 .f32) (P3 : Vec Ideal S2048x32 .f32)
    (P4 : Vec Ideal S32x2048 .f32) (P5 : Vec Ideal S1x2048 .f32) (p : Fin 256) (q : Fin 2048) :
    scaledv P0 P1 P2 P3 P4 P5 (ix2 p q)
      = ((rowOf (linv P0 P1 P2) p q - ∑ g : Fin 32, kmean (matOf P3) (rowOf (linv P0 P1 P2) p) g * matTOf P4 g q)
          * ∑ g : Fin 32, Ideal.rsqrt (kvar (matOf P3) (rowOf (linv P0 P1 P2) p) g + Ideal.ofBits .f32 0x3727C5AC#32) * matTOf P4 g q)
        * P5 (ix2 (0 : Fin 1) q) := by
  unfold scaledv
  rw [mulf_apply, mulf_apply, subf_apply, shapeCast_self, broadcastTo_1b_ab_apply, spreadv_apply, spreadv_apply]
  simp only [meanv_apply, istdv_apply]

/-- The stored block at `(p, q)`: the scaled block plus the shift row, clipped to `[−1, 1]` — the kernel's arrangement
    `knorm` of row `p` of the block's linear layer, with the one-hot operands as they were loaded. -/
theorem clipped_apply (P0 : Vec Ideal S256x2048 .f32) (P1 : Vec Ideal S2048x2048 .bf16) (P2 : Vec Ideal S1x2048 .f32) (P3 : Vec Ideal S2048x32 .f32)
    (P4 : Vec Ideal S32x2048 .f32) (P5 P6 : Vec Ideal S1x2048 .f32) (p : Fin 256) (q : Fin 2048) :
    min (Ideal.ofBits .f32 0x3F800000#32) (max (Ideal.ofBits .f32 0xBF800000#32)
        (k0_pay2 (F := Ideal) P0 P1 P2 P3 P4 P5 (ix2 p q) + P6 (ix2 (0 : Fin 1) q)))
      = knorm (matOf P3) (matTOf P4) (rowOf (linv P0 P1 P2) p) (fun j => P5 (ix2 (0 : Fin 1) (j 0))) (fun j => P6 (ix2 (0 : Fin 1) (j 0))) q := by
  rw [pay2_eq, scaledv_apply]
  rfl

end Cert.KernelIdeal.Row

end
-- ==== Proof.BlockValue.lean ====
/-
  One entry of one stored block is the specification at the array index under it.

  Stated over variables: if a block of 256 rows `P0` is rows `r₀ … r₀ + 255` of the activations `x`, `P1` is the weight,
  `P2`, `P5`, `P6` are the bias, scale and shift as rows, and `P3`, `P4` are the block one-hot matrix `[c / 64 = g]` and
  its transpose, and every entry of `x`, the weight and the bias is a real number, then what the body leaves at `(p, q)`
  of its block is the specification `G` at `(r₀ + p, q)`. The linear layer of a real row is real (a finite sum of
  products of reals plus a real), which is what lets the clamp on the variance be dropped.
-/
import proofs.«170412_j1580547965295_2_alg».proof.Proof.Gen.KernelIdeal.Value
import proofs.«170412_j1580547965295_2_alg».proof.Proof.KernelRow

noncomputable section

namespace Cert.KernelIdeal.Block

open Cert.KernelIdeal Cert.KernelIdeal.Gen Idealize.ShloMosaic Idealize.ShloMosaic.ValueIdx Cert.GroupNorm Cert.KernelIdeal.Row

/-- The linear layer of real activations, weight and bias is real, entry by entry. -/
theorem lin_real (x : SX.Idx → EReal) (w : SW.Idx → EReal) (b : SC.Idx → EReal)
    (hx : ∀ i, ∃ r : ℝ, x i = (r : EReal)) (hw : ∀ i, ∃ r : ℝ, w i = (r : EReal)) (hb : ∀ i, ∃ r : ℝ, b i = (r : EReal))
    (r : Fin 4096) (c : Fin 2048) : ∃ v : ℝ, lin x w b r c = (v : EReal) := by
  choose xr hxr using hx
  choose wr hwr using hw
  choose br hbr using hb
  refine ⟨(∑ k : Fin 2048, xr (ix2 r k) * wr (ix2 c k)) + br (ix1 c), ?_⟩
  unfold lin
  simp only [hxr, hwr, hbr, ← EReal.coe_mul]
  rw [Cert.Lib.RealSum.coe_sum, ← EReal.coe_add]

/-- Where a block index reads the scaled block: at itself. -/
theorem at_self (p : Fin 256) (q : Fin 2048) : Value.ix7_0 (ix2 p q : S256x2048.Idx) = ix2 p q := by
  funext a; match a with | ⟨0, _⟩ => rfl | ⟨1, _⟩ => rfl

/-- Where a block index reads the shift row: at its channel. -/
theorem at_channel (p : Fin 256) (q : Fin 2048) : Value.ix7_1 (ix2 p q : S256x2048.Idx) = ix2 (0 : Fin 1) q := by
  funext a; match a with | ⟨0, _⟩ => rfl | ⟨1, _⟩ => rfl

/-- Entry `(p, q)` of the block the body leaves is the specification at row `r₀ + p`, channel `q`. -/
theorem block_entry (x : SX.Idx → EReal) (w : SW.Idx → EReal) (b γ β : SC.Idx → EReal)
    (hx : ∀ i, ∃ r : ℝ, x i = (r : EReal)) (hw : ∀ i, ∃ r : ℝ, w i = (r : EReal)) (hb : ∀ i, ∃ r : ℝ, b i = (r : EReal))
    (P0 : Vec Ideal S256x2048 .f32) (P1 : Vec Ideal S2048x2048 .bf16) (P2 : Vec Ideal S1x2048 .f32) (P3 : Vec Ideal S2048x32 .f32)
    (P4 : Vec Ideal S32x2048 .f32) (P5 P6 : Vec Ideal S1x2048 .f32) (r₀ : ℕ)
    (h0 : ∀ (p : Fin 256) (k : Fin 2048) (row : Fin 4096), row.val = r₀ + p.val → P0 (ix2 p k) = x (ix2 row k))
    (h1 : ∀ (c k : Fin 2048), P1 (ix2 c k) = w (ix2 c k))
    (h2 : ∀ c : Fin 2048, P2 (ix2 (0 : Fin 1) c) = b (ix1 c))
    (h3 : ∀ (c : Fin 2048) (g : Fin 32), P3 (ix2 c g) = if c.val / 64 = g.val then (1 : EReal) else 0)
    (h4 : ∀ (g : Fin 32) (c : Fin 2048), P4 (ix2 g c) = if c.val / 64 = g.val then (1 : EReal) else 0)
    (h5 : ∀ c : Fin 2048, P5 (ix2 (0 : Fin 1) c) = γ (ix1 c))
    (h6 : ∀ c : Fin 2048, P6 (ix2 (0 : Fin 1) c) = β (ix1 c))
    (p : Fin 256) (q : Fin 2048) (row : Fin 4096) (hrow : row.val = r₀ + p.val) :
    Value.E7 (F := Ideal) P0 P1 P2 P3 P4 P5 P6 (ix2 p q) = G x w b γ β (ix2 row q) := by
  show min (Ideal.ofBits .f32 0x3F800000#32) (max (Ideal.ofBits .f32 0xBF800000#32)
      (k0_pay2 (F := Ideal) P0 P1 P2 P3 P4 P5 (Value.ix7_0 (ix2 p q)) + P6 (Value.ix7_1 (ix2 p q)))) = _
  rw [at_self, at_channel, clipped_apply, G_apply]
  have hrowf : rowOf (linv P0 P1 P2) p = lin x w b row := by
    funext c
    show linv P0 P1 P2 (ix2 p c) = _
    rw [linv_apply, h2]
    unfold lin
    exact congrArg (· + b (ix1 c)) (Finset.sum_congr rfl fun k _ => by rw [h0 p k row hrow, h1])
  rw [hrowf, knorm_eq (M := matOf P3) (Mt := matTOf P4) h3 h4 _ (fun c => lin_real x w b hx hw hb row c)]
  unfold Cert.GroupNorm.norm
  show min _ (max _ (_ * P5 (ix2 (0 : Fin 1) q) + P6 (ix2 (0 : Fin 1) q))) = _
  rw [h5, h6]

end Cert.KernelIdeal.Block

end
-- ==== Proof.BlocksToArray.lean ====
/- From what each grid point writes back to the whole result array.

   The grid has 16 points. Point `t` writes back rows `256 · t … 256 · t + 255` (all 2048 columns) of the `[4096, 2048]`
   result; the activations' block moves the same way, and the weight, the three per-channel rows and the two one-hot
   matrices are each one whole block at the origin. So every entry `(p, q)` of the block point `t` writes is the body's
   closed form of its loads, the loads are the argument arrays read at the array index under the block index, and the
   block entry is the specification `G` at row `256 · t + p`, channel `q`. The sixteen blocks tile the result (row `r`
   lies in block `r / 256`), so after the run the result array is `G` of the five argument arrays — provided the
   activations, the weight and the bias are real entry by entry, which is what the block-entry fact needs. -/
import proofs.«170412_j1580547965295_2_alg».proof.Proof.Gen.KernelIdeal.Value
import proofs.«170412_j1580547965295_2_alg».proof.Proof.RegionEntry
import proofs.«170412_j1580547965295_2_alg».proof.Proof.BlockValue

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The five argument arrays as launched: activations, weight, bias, scale, shift. -/
abbrev A0 (c : Dev nD) : Cert.GroupNorm.SX.Idx → EReal := m ((c : Thread nD τ).loc main_arg0)
abbrev A1 (c : Dev nD) : Cert.GroupNorm.SW.Idx → EReal := m ((c : Thread nD τ).loc main_arg1)
abbrev A2 (c : Dev nD) : Cert.GroupNorm.SC.Idx → EReal := m ((c : Thread nD τ).loc main_arg2)
abbrev A3 (c : Dev nD) : Cert.GroupNorm.SC.Idx → EReal := m ((c : Thread nD τ).loc main_arg3)
abbrev A4 (c : Dev nD) : Cert.GroupNorm.SC.Idx → EReal := m ((c : Thread nD τ).loc main_arg4)

theorem zero_offsets : (![0, 0] : Fin 2 → Nat) = fun _ => 0 := funext fun a => by fin_cases a <;> rfl

/-- The index maps, decided over the 16 grid points: the activations' block moves with the result's block, every other
    input is one whole block at the origin, and the result's block runs down the rows (at most 16 blocks) in one column
    of blocks. -/
theorem index_maps : ∀ t : Fin cfg0.N,
    win0_0.index t (0 : Fin 2) = win0_7.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 15 ∧ win0_7.index t (1 : Fin 2) = 0 :=
  (by decide +kernel : ∀ t : Fin grid0.N, _)

/-- Every block of rows is some grid point's. -/
theorem index_onto : ∀ q0 : Fin 16, ∃ t : Fin cfg0.N, win0_7.index t = ![q0.val, 0] :=
  (by decide +kernel : ∀ q0 : Fin 16, ∃ t : Fin grid0.N, win0_7.index t = ![q0.val, 0])

/-- What the body leaves in the result's block is the closed form of its loads: every load is of a whole block. -/
theorem out_eq (x0 : Vec Ideal S256x2048 .f32) (x1 : Vec Ideal S2048x2048 .bf16) (x2 x3 x4 : Vec Ideal S1x2048 .f32)
    (x5 : Vec Ideal S2048x32 .f32) (x6 : Vec Ideal S32x2048 .f32) :
    out0_7 x0 x1 x2 x3 x4 x5 x6 = Value.E7 x0 x1 x2 x5 x6 x3 x4 := by
  unfold Gen.out0_7
  simp only [View.ld_unit_zero (S := S256x2048) zero_offsets, View.ld_unit_zero (S := S2048x2048) zero_offsets,
    View.ld_unit_zero (S := S1x2048) zero_offsets, View.ld_unit_zero (S := S2048x32) zero_offsets,
    View.ld_unit_zero (S := S32x2048) zero_offsets]
  funext y
  exact Value.canon7_eq x0 x1 x2 x5 x6 x3 x4 y

/-- The activations' block at point `t`, entry `(p, k)`, is the activations at row `256 · (block index) + p`. -/
theorem block0_apply (c : Dev nD) (t : Fin cfg0.N) (p : Fin 256) (k : Fin 2048) (row : Fin 4096)
    (hrow : row.val = win0_7.index t (0 : Fin 2) * 256 + p.val) :
    (iblk m c 0 t : S256x2048.Idx → EReal) (ix2 p k) = A0 m c (ix2 row k) := by
  obtain ⟨e0, e1, -⟩ := index_maps t
  unfold Gen.iblk
  show V m c main_arg0 (((cfg0.win 0).blk t).view.emb (ix2 p k)) = _
  rw [Gen.V_main_arg0]
  refine congrArg (m ((c : Thread nD τ).loc main_arg0)) ?_
  funext a; apply Fin.ext
  match a with
  | ⟨0, _⟩ => show win0_0.index t (0 : Fin 2) * 256 + 1 * p.val = row.val; omega
  | ⟨1, _⟩ => show win0_0.index t (1 : Fin 2) * 2048 + 1 * k.val = k.val; omega

/-- The weight's block is the whole weight: the cast to bf16 is the identity on the extended reals. -/
theorem block1_apply (c : Dev nD) (t : Fin cfg0.N) (ch k : Fin 2048) :
    (iblk m c 1 t : S2048x2048.Idx → EReal) (ix2 ch k) = A1 m c (ix2 ch k) := by
  obtain ⟨-, -, e2, e3, -⟩ := index_maps t
  unfold Gen.iblk
  show V m c main_v0 (((cfg0.win 1).blk t).view.emb (ix2 ch k)) = _
  refine (congrFun (Entry.V_main_v0_eq m c) _).trans ?_
  refine congrArg (m ((c : Thread nD τ).loc main_arg1)) ?_
  funext a; apply Fin.ext
  match a with
  | ⟨0, _⟩ => show win0_1.index t (0 : Fin 2) * 2048 + 1 * ch.val = ch.val; omega
  | ⟨1, _⟩ => show win0_1.index t (1 : Fin 2) * 2048 + 1 * k.val = k.val; omega

/-- The bias row's block at `(0, q)` is the bias at `q`. -/
theorem block2_apply (c : Dev nD) (t : Fin cfg0.N) (q : Fin 2048) :
    (iblk m c 2 t : S1x2048.Idx → EReal) (ix2 (0 : Fin 1) q) = A2 m c (ix1 q) := by
  obtain ⟨-, -, -, -, e4, e5, e6, e7, e8, e9, -⟩ := index_maps t
  unfold Gen.iblk
  show V m c main_v1 (((cfg0.win 2).blk t).view.emb (ix2 (0 : Fin 1) q)) = _
  have hidx : ((cfg0.win 2).blk t).view.emb (ix2 (0 : Fin 1) q) = (ix2 (0 : Fin 1) q : S1x2048.Idx) := by
    funext a; apply Fin.ext
    match a with
    | ⟨0, _⟩ => show win0_2.index t (0 : Fin 2) * 1 + 1 * 0 = 0; omega
    | ⟨1, _⟩ => show win0_2.index t (1 : Fin 2) * 2048 + 1 * q.val = q.val; omega
  exact (congrArg (V m c main_v1) hidx).trans (Entry.V_main_v1_apply m c q)

/-- The scale row's block at `(0, q)` is the scale at `q`. -/
theorem block3_apply (c : Dev nD) (t : Fin cfg0.N) (q : Fin 2048) :
    (iblk m c 3 t : S1x2048.Idx → EReal) (ix2 (0 : Fin 1) q) = A3 m c (ix1 q) := by
  obtain ⟨-, -, -, -, e4, e5, e6, e7, e8, e9, -⟩ := index_maps t
  unfold Gen.iblk
  show V m c main_v2 (((cfg0.win 3).blk t).view.emb (ix2 (0 : Fin 1) q)) = _
  have hidx : ((cfg0.win 3).blk t).view.emb (ix2 (0 : Fin 1) q) = (ix2 (0 : Fin 1) q : S1x2048.Idx) := by
    funext a; apply Fin.ext
    match a with
    | ⟨0, _⟩ => show win0_3.index t (0 : Fin 2) * 1 + 1 * 0 = 0; omega
    | ⟨1, _⟩ => show win0_3.index t (1 : Fin 2) * 2048 + 1 * q.val = q.val; omega
  exact (congrArg (V m c main_v2) hidx).trans (Entry.V_main_v2_apply m c q)

/-- The shift row's block at `(0, q)` is the shift at `q`. -/
theorem block4_apply (c : Dev nD) (t : Fin cfg0.N) (q : Fin 2048) :
    (iblk m c 4 t : S1x2048.Idx → EReal) (ix2 (0 : Fin 1) q) = A4 m c (ix1 q) := by
  obtain ⟨-, -, -, -, e4, e5, e6, e7, e8, e9, -⟩ := index_maps t
  unfold Gen.iblk
  show V m c main_v3 (((cfg0.win 4).blk t).view.emb (ix2 (0 : Fin 1) q)) = _
  have hidx : ((cfg0.win 4).blk t).view.emb (ix2 (0 : Fin 1) q) = (ix2 (0 : Fin 1) q : S1x2048.Idx) := by
    funext a; apply Fin.ext
    match a with
    | ⟨0, _⟩ => show win0_4.index t (0 : Fin 2) * 1 + 1 * 0 = 0; omega
    | ⟨1, _⟩ => show win0_4.index t (1 : Fin 2) * 2048 + 1 * q.val = q.val; omega
  exact (congrArg (V m c main_v3) hidx).trans (Entry.V_main_v3_apply m c q)

/-- The one-hot matrix's block is the whole matrix: `1` where channel `ch` lies in group `g`, else `0`. -/
theorem block5_apply (c : Dev nD) (t : Fin cfg0.N) (ch : Fin 2048) (g : Fin 32) :
    (iblk m c 5 t : S2048x32.Idx → EReal) (ix2 ch g) = if ch.val / 64 = g.val then (1 : EReal) else 0 := by
  obtain ⟨-, -, -, -, -, -, -, -, -, -, e10, e11, -⟩ := index_maps t
  unfold Gen.iblk
  show V m c main_v12 (((cfg0.win 5).blk t).view.emb (ix2 ch g)) = _
  have hidx : ((cfg0.win 5).blk t).view.emb (ix2 ch g) = (ix2 ch g : S2048x32.Idx) := by
    funext a; apply Fin.ext
    match a with
    | ⟨0, _⟩ => show win0_5.index t (0 : Fin 2) * 2048 + 1 * ch.val = ch.val; omega
    | ⟨1, _⟩ => show win0_5.index t (1 : Fin 2) * 32 + 1 * g.val = g.val; omega
  exact (congrArg (V m c main_v12) hidx).trans (Entry.V_main_v12_apply m c ch g)

/-- The transposed one-hot matrix's block is the whole matrix. -/
theorem block6_apply (c : Dev nD) (t : Fin cfg0.N) (g : Fin 32) (ch : Fin 2048) :
    (iblk m c 6 t : S32x2048.Idx → EReal) (ix2 g ch) = if ch.val / 64 = g.val then (1 : EReal) else 0 := by
  obtain ⟨-, -, -, -, -, -, -, -, -, -, -, -, e12, e13, -⟩ := index_maps t
  unfold Gen.iblk
  show V m c main_v13 (((cfg0.win 6).blk t).view.emb (ix2 g ch)) = _
  have hidx : ((cfg0.win 6).blk t).view.emb (ix2 g ch) = (ix2 g ch : S32x2048.Idx) := by
    funext a; apply Fin.ext
    match a with
    | ⟨0, _⟩ => show win0_6.index t (0 : Fin 2) * 32 + 1 * g.val = g.val; omega
    | ⟨1, _⟩ => show win0_6.index t (1 : Fin 2) * 2048 + 1 * ch.val = ch.val; omega
  exact (congrArg (V m c main_v13) hidx).trans (Entry.V_main_v13_apply m c g ch)

/-- An index of the result array is in point `t`'s block iff each coordinate is in the block's range on its axis. -/
theorem mem_block (t : Fin cfg0.N) (i : S4096x2048.Idx) :
    i ∈ ((cfg0.win 7).blk t).view.set ↔ ∀ a : Fin 2, win0_7.index t a * S256x2048.size a ≤ (i a).val ∧ (i a).val < win0_7.index t a * S256x2048.size a + S256x2048.size a := by
  show i ∈ ((View.whole main_v14).slice (win0_7.rect t)).set ↔ _
  rw [View.set_slice_whole, Rect.mem_set_unit]
  exact Iff.rfl

/-- The blocks tile the result: row `r` lies in block `r / 256`, and every point writes its block back. -/
theorem cover (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  obtain ⟨t, ht⟩ := index_onto ⟨(i 0).val / 256, by omega⟩
  have q0 : win0_7.index t (0 : Fin 2) = (i 0).val / 256 := congrFun ht 0
  have q1 : win0_7.index t (1 : Fin 2) = 0 := congrFun ht 1
  refine ⟨t, flush0_7 t, ?_⟩
  rw [mem_block]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 2048 ≤ (i 1).val ∧ (i 1).val < win0_7.index t (1 : Fin 2) * 2048 + 2048; omega

/-- WHAT POINT `t` WRITES BACK is block `t` of the specification of the five argument arrays, when the activations, the
    weight and the bias are real entry by entry. -/
theorem flushed_eq (c : Dev nD) (hx : ∀ i, ∃ r : ℝ, A0 m c i = (r : EReal)) (hw : ∀ i, ∃ r : ℝ, A1 m c i = (r : EReal))
    (hb : ∀ i, ∃ r : ℝ, A2 m c i = (r : EReal)) (t : Fin cfg0.N) :
    (dats m 0 c).flushed 7 t
      = ((cfg0.win 7).blk t).view.read (Elt Ideal) (Cert.GroupNorm.G (A0 m c) (A1 m c) (A2 m c) (A3 m c) (A4 m c)) := by
  rw [Value.flushed7]
  rw [out_eq (iblk m c 0 t) (iblk m c 1 t) (iblk m c 2 t) (iblk m c 3 t) (iblk m c 4 t) (iblk m c 5 t) (iblk m c 6 t)]
  have hmaps := index_maps t
  have e14 : win0_7.index t (0 : Fin 2) ≤ 15 := hmaps.2.2.2.2.2.2.2.2.2.2.2.2.2.2.1
  have e15 : win0_7.index t (1 : Fin 2) = 0 := hmaps.2.2.2.2.2.2.2.2.2.2.2.2.2.2.2
  funext y
  obtain ⟨p, q, rfl⟩ : ∃ (p : Fin 256) (q : Fin 2048), y = ix2 p q := ⟨y 0, y 1, eq_ix2 y⟩
  have hp : p.val < 256 := p.isLt
  show Value.E7 (F := Ideal) (iblk m c 0 t) (iblk m c 1 t) (iblk m c 2 t) (iblk m c 5 t) (iblk m c 6 t) (iblk m c 3 t) (iblk m c 4 t) (ix2 p q)
    = Cert.GroupNorm.G (A0 m c) (A1 m c) (A2 m c) (A3 m c) (A4 m c) (((cfg0.win 7).blk t).view.emb (ix2 p q))
  refine (Block.block_entry (A0 m c) (A1 m c) (A2 m c) (A3 m c) (A4 m c) hx hw hb
    (iblk m c 0 t) (iblk m c 1 t) (iblk m c 2 t) (iblk m c 5 t) (iblk m c 6 t) (iblk m c 3 t) (iblk m c 4 t)
    (win0_7.index t (0 : Fin 2) * 256)
    (fun p' k row hrow => block0_apply m c t p' k row hrow)
    (fun ch k => block1_apply m c t ch k)
    (fun q' => block2_apply m c t q')
    (fun ch g => block5_apply m c t ch g)
    (fun g ch => block6_apply m c t g ch)
    (fun q' => block3_apply m c t q')
    (fun q' => block4_apply m c t q')
    p q ⟨win0_7.index t (0 : Fin 2) * 256 + p.val, by omega⟩ rfl).trans ?_
  refine congrArg (Cert.GroupNorm.G (A0 m c) (A1 m c) (A2 m c) (A3 m c) (A4 m c)) ?_
  funext a; apply Fin.ext
  match a with
  | ⟨0, _⟩ => show win0_7.index t (0 : Fin 2) * 256 + p.val = win0_7.index t (0 : Fin 2) * 256 + 1 * p.val; omega
  | ⟨1, _⟩ => show q.val = win0_7.index t (1 : Fin 2) * 2048 + 1 * q.val; omega

/-- THE RESULT ARRAY after the run is the specification of the five argument arrays: the sixteen blocks tile it. -/
theorem final (c : Dev nD) (hx : ∀ i, ∃ r : ℝ, A0 m c i = (r : EReal)) (hw : ∀ i, ∃ r : ℝ, A1 m c i = (r : EReal))
    (hb : ∀ i, ∃ r : ℝ, A2 m c i = (r : EReal)) :
    (dats m 0 c).arrAt 7 cfg0.N = Cert.GroupNorm.G (A0 m c) (A1 m c) (A2 m c) (A3 m c) (A4 m c) :=
  (dats m 0 c).arrAt_eq_of_cover 7 (Cert.GroupNorm.G (A0 m c) (A1 m c) (A2 m c) (A3 m c) (A4 m c))
    (fun t _ => flushed_eq m c hx hw hb t) cover

/-- The run, read: the result buffer ends holding the specification of the argument arrays, which are unchanged. -/
theorem run (ρ : Dev nD → PrngReg)
    (hreal : ∀ c : Dev nD, (∀ i, ∃ r : ℝ, A0 m c i = (r : EReal)) ∧ (∀ i, ∃ r : ℝ, A1 m c i = (r : EReal)) ∧ (∀ i, ∃ r : ℝ, A2 m c i = (r : EReal))) :
    θ_run defs (onTc (τ := τ) (main (F := Ideal))) ⟨m, fun _ => 0, ρ⟩ fun r => ∀ c : Dev nD,
      r.2.mem ((c : Thread nD τ).loc main_v14) = Cert.GroupNorm.G (A0 m c) (A1 m c) (A2 m c) (A3 m c) (A4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hreal c).1 (hreal c).2.1 (hreal c).2.2), (h c).2⟩)
    (Value.run_blocks m ρ)

end Cert.KernelIdeal.Whole
end
-- ==== Proof.lean ====
/-
  A linear layer fused with a group normalisation (32 groups of 64 channels) and a clip to [−1, 1], against its plain
  reference, on the extended reals.

  Both programs compute, for each row, `y = x · Wᵀ + b`, then per group of 64 consecutive channels the mean and the
  variance `meansq − mean²`, then `((y − mean) · rsqrt (var + ε)) · γ + β` clipped to `[−1, 1]`
  (Proof/GroupNormSpec.lean states this as one function `G` of the five argument arrays).
  The reference reshapes each row into its groups and reduces; reading its operations one at a time gives `G` with
  no algebra (Proof/ReferenceValue.lean). The kernel never reshapes: it takes the group sums, and spreads the group
  statistics back over the channels, as products with a block one-hot matrix and its transpose that plain host
  operations build before the call from an integer floor division (Proof/RegionEntry.lean reads those arrays);
  it multiplies by the exact word of 1/64 where the reference divides by 64; and it clamps the variance at zero.
  On rows of real numbers the clamp is the identity, because the mean of squares is at least the squared mean
  (Proof/GroupAlgebra.lean) — the one use of the precondition that every input is finite
  (Proof/FiniteInputs.lean). One block of the body read entry by entry is Proof/KernelRow.lean and
  Proof/BlockValue.lean; the sixteen row blocks tile the result array (Proof/BlocksToArray.lean).
  No operation was rewritten by the idealization, so the preservation claim is the true proposition.
-/
import proofs.«170412_j1580547965295_2_alg».proof.Defs
import proofs.«170412_j1580547965295_2_alg».proof.Proof.Gen.Kernel
import proofs.«170412_j1580547965295_2_alg».proof.Proof.Gen.Kernel.Skeleton
import proofs.«170412_j1580547965295_2_alg».proof.Proof.Gen.Kernel.Launch
import proofs.«170412_j1580547965295_2_alg».proof.Proof.Gen.Kernel.Points
import proofs.«170412_j1580547965295_2_alg».proof.Proof.Gen.Kernel.Frame
import proofs.«170412_j1580547965295_2_alg».proof.Proof.Gen.KernelIdeal
import proofs.«170412_j1580547965295_2_alg».proof.Proof.Gen.KernelIdeal.Skeleton
import proofs.«170412_j1580547965295_2_alg».proof.Proof.Gen.KernelIdeal.Launch
import proofs.«170412_j1580547965295_2_alg».proof.Proof.Gen.KernelIdeal.Points
import proofs.«170412_j1580547965295_2_alg».proof.Proof.Gen.KernelIdeal.Frame
import proofs.«170412_j1580547965295_2_alg».proof.Proof.Gen.ReferenceIdeal
import proofs.«170412_j1580547965295_2_alg».proof.Proof.Gen.Pre_finite_inputs
import proofs.«170412_j1580547965295_2_alg».proof.Proof.Gen.KernelIdeal.Value
import proofs.«170412_j1580547965295_2_alg».proof.Proof.Gen.ReferenceIdeal.Run
import proofs.«170412_j1580547965295_2_alg».proof.Proof.Gen.ReferenceIdeal.Read
import proofs.«170412_j1580547965295_2_alg».proof.Proof.ReferenceValue
import proofs.«170412_j1580547965295_2_alg».proof.Proof.FiniteInputs
import proofs.«170412_j1580547965295_2_alg».proof.Proof.BlocksToArray
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, both runs end with the result array at `G` of the arguments: the kernel's
    because its sixteen blocks tile the array and each entry is `G` there (the inputs being real), the reference's by
    reading its operations. -/
theorem algebraic : Cert.algebraic_KernelIdeal_ReferenceIdeal := by
  intro m ρ m' ρ' hpre hagree
  refine ⟨_, Cert.KernelIdeal.Whole.run m ρ (fun c => Cert.Proof.Finite.real_args m hpre c), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.ref_is_G,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
